-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x64 : Shape := ⟨2, ![65536, 64]⟩
abbrev S1x65536x512 : Shape := ⟨3, ![1, 65536, 512]⟩
abbrev S1536x320 : Shape := ⟨2, ![1536, 320]⟩
abbrev S1536x512 : Shape := ⟨2, ![1536, 512]⟩
abbrev S1536 : Shape := ⟨1, ![1536]⟩
abbrev S1024x512 : Shape := ⟨2, ![1024, 512]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S1x65536x512 : S_.BroadcastsInDim S1x65536x512 (![] : Fin 0 → Fin S1x65536x512.rank)
  reducesTo_S1x65536x512_S_d0_1_2 : S1x65536x512.ReducesTo [0, 1, 2] S_
  bcast_S_S1536x320 : S_.BroadcastsInDim S1536x320 (![] : Fin 0 → Fin S1536x320.rank)
  reducesTo_S1536x320_S_d0_1 : S1536x320.ReducesTo [0, 1] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x1024 .f32) (main_arg12 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1x1024 .f32 := Host.absf main_arg11
  let main_cst_20 : FVec F S_ .f32 := constant S_ .f32 0x7F800000#32
  let main_v55 : FVec F S1x1024 .f32 := broadcastInDim S1x1024 ![] bcast_S_S1x1024 main_cst_20
  let main_v56 : IVec S1x1024 1 := cmpf .olt main_v54 main_v55
  let main_c_21 : IVec S_ 1 := constantI S_ 1 1#1
  let main_v57 : IVec S_ 1 := (fun x v => Host.reduce IntOp.andi x v reducesTo_S1x1024_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S1024x512 .f32) (main_arg8 : FVec F S1024 .f32) (main_arg9 : FVec F S1024x1024 .f32) (main_arg10 : FVec F S1024 .f32) (main_arg11 : FVec F S1x1024 .f32) (main_arg12 : FVec F S1 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S1536x512 .f32) (main_arg5 : FVec F S1536 .f32) (main_arg6 : FVec F S1536 .f32) (main_arg7 : FVec F S1024x512 .f32) (main_arg8 : FVec F S1024 .f32) (main_arg9 : FVec F S1024x1024 .f32) (main_arg10 : FVec F S1024 .f32) (main_arg11 : FVec F S1x1024 .f32) (main_arg12 : FVec F S1 .f32) (main_v13 : IVec S_ 1) (main_v16 : IVec S1536x320 1) : IVec S_ 1 :=
  let main_c_5 : IVec S_ 1 := constantI S_ 1 1#1
  let main_v17 : IVec S_ 1 := (fun x v => Host.reduce IntOp.andi x v reducesTo_S1536x320_S_d0_1 h_S_) main_v16 main_c_5
  let main_v18 : IVec S_ 1 := andi main_v13 main_v17
  let main_v19 : FVec F S1536x512 .f32 := Host.absf main_arg4
  let main_cst_6 : FVec F S_ .f32 := constant S_ .f32 0x7F800000#32
  let main_v20 : FVec F S1536x512 .f32 := broadcastInDim S1536x512 ![] bcast_S_S1536x512 main_cst_6
  let main_v21 : IVec S1536x512 1 := cmpf .olt main_v19 main_v20
  let main_c_7 : IVec S_ 1 := constantI S_ 1 1#1
  let main_v22 : IVec S_ 1 := (fun x v => Host.reduce IntOp.andi x v reducesTo_S1536x512_S_d0_1 h_S_) main_v21 main_c_7
  let main_v23 : IVec S_ 1 := andi main_v18 main_v22
  let main_v24 : FVec F S1536 .f32 := Host.absf main_arg5
  let main_cst_8 : FVec F S_ .f32 := constant S_ .f32 0x7F800000#32
  let main_v25 : FVec F S1536 .f32 := broadcastInDim S1536 ![] bcast_S_S1536 main_cst_8
  let main_v26 : IVec S1536 1 := cmpf .olt main_v24 main_v25
  let main_c_9 : IVec S_ 1 := constantI S_ 1 1#1
  let main_v27 : IVec S_ 1 := (fun x v => Host.reduce IntOp.andi x v reducesTo_S1536_S_d0 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S65536x256 .f32) (main_arg1 : FVec F S65536x64 .f32) (main_arg2 : FVec F S1x65536x512 .f32) (main_arg3 : FVec F S1536x320 .f32) (main_arg4 : FVec F S1536x512 .f32) (main_arg5 : FVec F S1536 .f32) (main_arg6 : FVec F S1536 .f32) (main_arg7 : FVec F S1024x512 .f32) (main_arg8 : FVec F S1024 .f32) (main_arg9 : FVec F S1024x1024 .f32) (main_arg10 : FVec F S1024 .f32) (main_arg11 : FVec F S1x1024 .f32) (main_arg12 : FVec F S1 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S1x65536x512 .f32 := Host.absf main_arg2
  let main_cst_2 : FVec F S_ .f32 := constant S_ .f32 0x7F800000#32
  let main_v10 : FVec F S1x65536x512 .f32 := broadcastInDim S1x65536x512 ![] bcast_S_S1x65536x512 main_cst_2
  let main_v11 : IVec S1x65536x512 1 := cmpf .olt main_v9 main_v10
  let main_c_3 : IVec S_ 1 := constantI S_ 1 1#1
  let main_v12 : IVec S_ 1 := (fun x v => Host.reduce IntOp.andi x v reducesTo_S1x65536x512_S_d0_1_2 h_S_) main_v11 main_c_3
  let main_v13 : IVec S_ 1 := andi main_v8 main_v12
  let main_v14 : FVec F S1536x320 .f32 := Host.absf main_arg3
  let main_cst_4 : FVec F S_ .f32 := constant S_ .f32 0x7F800000#32
  let main_v15 : FVec F S1536x320 .f32 := broadcastInDim S1536x320 ![] bcast_S_S1536x320 main_cst_4
  let main_v16 : IVec S1536x320 1 := cmpf .olt main_v14 main_v15
  fn_part1 (F := F) main_arg4 main_arg5 main_arg6 main_arg7 main_arg8 main_arg9 main_arg10 main_arg11 main_arg12 main_v13 main_v16
-- ==== Kernel.lean ====
abbrev S65536x256 : Shape := ⟨2, ![65536, 256]⟩
abbrev S65536x64 : Shape := ⟨2, ![65536, 64]⟩
abbrev S1x65536x512 : Shape := ⟨3, ![1, 65536, 512]⟩
abbrev S1536x320 : Shape := ⟨2, ![1536, 320]⟩
abbrev S1536x512 : Shape := ⟨2, ![1536, 512]⟩
abbrev S1536 : Shape := ⟨1, ![1536]⟩
abbrev S1024x512 : Shape := ⟨2, ![1024, 512]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S65536x512 : Shape := ⟨2, ![65536, 512]⟩
abbrev S320x1536 : Shape := ⟨2, ![320, 1536]⟩
abbrev S256x1536 : Shape := ⟨2, ![256, 1536]⟩
abbrev S64x1536 : Shape := ⟨2, ![64, 1536]⟩
abbrev S512x1536 : Shape := ⟨2, ![512, 1536]⟩
abbrev S512x1024 : Shape := ⟨2, ![512, 1024]⟩
abbrev S1x1536 : Shape := ⟨2, ![1, 1536]⟩
abbrev S1x1 : Shape := ⟨2, ![1, 1]⟩
abbrev S65536x1 : Shape := ⟨2, ![65536, 1]⟩
abbrev S1024x256 : Shape := ⟨2, ![1024, 256]⟩
abbrev S1024x64 : Shape := ⟨2, ![1024, 64]⟩
abbrev S1024x1 : Shape := ⟨2, ![1024, 1]⟩
abbrev S1024x1536 : Shape := ⟨2, ![1024, 1536]⟩

abbrev nBuf : Space → Nat
  | .hbm => 33
  | .vmem => 21
  | .smem => 0
  | _ => 0

abbrev bufTy : (tb : Table) → Fin (tcTables nBuf tb) → BufTy
  | .hbm, ⟨0, _⟩ => ⟨S65536x256, .f32⟩
  | .hbm, ⟨1, _⟩ => ⟨S65536x64, .f32⟩
  | .hbm, ⟨2, _⟩ => ⟨S1x65536x512, .f32⟩
  | .hbm, ⟨3, _⟩ => ⟨S1536x320, .f32⟩
  | .hbm, ⟨4, _⟩ => ⟨S1536x512, .f32⟩
  | .hbm, ⟨5, _⟩ => ⟨S1536, .f32⟩
  | .hbm, ⟨6, _⟩ => ⟨S1536, .f32⟩
  | .hbm, ⟨7, _⟩ => ⟨S1024x512, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1x1024, .f32⟩
  | .hbm, ⟨12, _⟩ => ⟨S1, .f32⟩
  | .hbm, ⟨13, _⟩ => ⟨S65536x512, .f32⟩
  | .hbm, ⟨14, _⟩ => ⟨S320x1536, .f32⟩
  | .hbm, ⟨15, _⟩ => ⟨S320x1536, .bf16⟩
  | .hbm, ⟨16, _⟩ => ⟨S256x1536, .bf16⟩
  | .hbm, ⟨17, _⟩ => ⟨S64x1536, .bf16⟩
  | .hbm, ⟨18, _⟩ => ⟨S512x1536, .f32⟩
  | .hbm, ⟨19, _⟩ => ⟨S512x1536, .bf16⟩
  | .hbm, ⟨20, _⟩ => ⟨S512x1024, .f32⟩
  | .hbm, ⟨21, _⟩ => ⟨S512x1024, .bf16⟩
  | .hbm, ⟨22, _⟩ => ⟨S1024x1024, .f32⟩
  | .hbm, ⟨23, _⟩ => ⟨S1024x1024, .bf16⟩
  | .hbm, ⟨24, _⟩ => ⟨S1x1024, .bf16⟩
  | .hbm, ⟨25, _⟩ => ⟨S1x1536, .f32⟩
  | .hbm, ⟨26, _⟩ => ⟨S1x1536, .f32⟩
  | .hbm, ⟨27, _⟩ => ⟨S1x1024, .f32⟩
  | .hbm, ⟨28, _⟩ => ⟨S1x1024, .f32⟩
  | .hbm, ⟨29, _⟩ => ⟨S1x1, .f32⟩
  | .hbm, ⟨30, _⟩ => ⟨S65536x1, .f32⟩
  | .hbm, ⟨31, _⟩ => ⟨S65536x512, .f32⟩
  | .hbm, ⟨32, _⟩ => ⟨S1x65536x512, .f32⟩
  | .local _ .vmem, ⟨0, _⟩ => ⟨S1024x256, .f32⟩
  | .local _ .vmem, ⟨1, _⟩ => ⟨S1024x256, .f32⟩
  | .local _ .vmem, ⟨2, _⟩ => ⟨S1024x64, .f32⟩
  | .local _ .vmem, ⟨3, _⟩ => ⟨S1024x64, .f32⟩
  | .local _ .vmem, ⟨4, _⟩ => ⟨S1024x512, .f32⟩
  | .local _ .vmem, ⟨5, _⟩ => ⟨S1024x512, .f32⟩
  | .local _ .vmem, ⟨6, _⟩ => ⟨S256x1536, .bf16⟩
  | .local _ .vmem, ⟨7, _⟩ => ⟨S64x1536, .bf16⟩
  | .local _ .vmem, ⟨8, _⟩ => ⟨S512x1536, .bf16⟩
  | .local _ .vmem, ⟨9, _⟩ => ⟨S1x1536, .f32⟩
  | .local _ .vmem, ⟨10, _⟩ => ⟨S1x1536, .f32⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S1x1024, .bf16⟩
  | .local _ .vmem, ⟨16, _⟩ => ⟨S1x1, .f32⟩
  | .local _ .vmem, ⟨17, _⟩ => ⟨S1024x1, .f32⟩
  | .local _ .vmem, ⟨18, _⟩ => ⟨S1024x1, .f32⟩
  | .local _ .vmem, ⟨19, _⟩ => ⟨S1024x512, .f32⟩
  | .local _ .vmem, ⟨20, _⟩ => ⟨S1024x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S1x65536x512_S65536x512 : S1x65536x512.ShapeCasts S65536x512
  transposes_S1536x320_S320x1536_1_0 : S1536x320.Transposes [1, 0] S320x1536
  bitsLt_bf16_f32 : FTy.bits .bf16 < FTy.bits .f32
  slices_S320x1536_S256x1536_0_0 : S320x1536.Slices ![0, 0] S256x1536
  slices_S320x1536_S64x1536_256_0 : S320x1536.Slices ![256, 0] S64x1536
  transposes_S1536x512_S512x1536_1_0 : S1536x512.Transposes [1, 0] S512x1536
  transposes_S1024x512_S512x1024_1_0 : S1024x512.Transposes [1, 0] S512x1024
  transposes_S1024x1024_S1024x1024_1_0 : S1024x1024.Transposes [1, 0] S1024x1024
  shapeCasts_S1536_S1x1536 : S1536.ShapeCasts S1x1536
  shapeCasts_S1024_S1x1024 : S1024.ShapeCasts S1x1024
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  inb_S1024x64_S1024x64_0_0 : ∀ a, (![0, 0] : Fin 2 → Nat) a + S1024x64.size a ≤ S1024x64.size a
  h_S1024x64 : 0 < S1024x64.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  inb_S64x1536_S64x1536_0_0 : ∀ a, (![0, 0] : Fin 2 → Nat) a + S64x1536.size a ≤ S64x1536.size a
  h_S64x1536 : 0 < S64x1536.numel
  shapeCasts_S64x1536_S64x1536 : S64x1536.ShapeCasts S64x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  bcast_S65536x512_S1x65536x512_1_2 : S65536x512.BroadcastsInDim S1x65536x512 (![1, 2] : Fin 2 → Fin S1x65536x512.rank)
  dot_S1024x256_S256x1536_S1024x1536_1_0_0_1_n_n_wf : DotDims.WF S1024x256 S256x1536 S1024x1536 [1] [0] [0] [1] [] []
  dot_S1024x64_S64x1536_S1024x1536_1_0_0_1_n_n_wf : DotDims.WF S1024x64 S64x1536 S1024x1536 [1] [0] [0] [1] [] []
  dot_S1024x512_S512x1536_S1024x1536_1_0_0_1_n_n_wf : DotDims.WF S1024x512 S512x1536 S1024x1536 [1] [0] [0] [1] [] []
  dot_S1024x512_S512x1024_S1024x1024_1_0_0_1_n_n_wf : DotDims.WF S1024x512 S512x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S65536x64.size a
  hwx0_1 : ∀ i : grid0.Coords, EltTy.bits .f32 = 32 ∨ (Rect.block (s := S65536x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S65536x512.size a
  hwx0_2 : ∀ i : grid0.Coords, EltTy.bits .f32 = 32 ∨ (Rect.block (s := S65536x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1536.size a ≤ S256x1536.size a
  hwx0_3 : ∀ i : grid0.Coords, EltTy.bits .bf16 = 32 ∨ (Rect.block (s := S256x1536) S256x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1536.size a ≤ S64x1536.size a
  hwx0_4 : ∀ i : grid0.Coords, EltTy.bits .bf16 = 32 ∨ (Rect.block (s := S64x1536) S64x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1536.size a ≤ S512x1536.size a
  hwx0_5 : ∀ i : grid0.Coords, EltTy.bits .bf16 = 32 ∨ (Rect.block (s := S512x1536) S512x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1536.size a ≤ S1x1536.size a
  hwx0_6 : ∀ i : grid0.Coords, EltTy.bits .f32 = 32 ∨ (Rect.block (s := S1x1536) S1x1536.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1536.size a ≤ S1x1536.size a
  hwx0_7 : ∀ i : grid0.Coords, EltTy.bits .f32 = 32 ∨ (Rect.block (s := S1x1536) S1x1536.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S512x1024.size a
  hwx0_8 : ∀ i : grid0.Coords, EltTy.bits .bf16 = 32 ∨ (Rect.block (s := S512x1024) S512x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .bf16 = 32 ∨ (Rect.block (s := S1x1024) S1x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x1.size a ≤ S65536x1.size a
  hwx0_14 : ∀ i : grid0.Coords, EltTy.bits .f32 = 32 ∨ (Rect.block (s := S65536x1) S1024x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x512.size a ≤ S65536x512.size a
  hwx0_15 : ∀ i : grid0.Coords, EltTy.bits .f32 = 32 ∨ (Rect.block (s := S65536x512) S1024x512.size (cc0_transform_15 i) (hinb0_15 i)).WholeWords (EltTy.packing .f32)

variable [Facts₀]

def dot_S1024x256_S256x1536_S1024x1536_1_0_0_1_n_n : DotDims S1024x256 S256x1536 S1024x1536 where
  lhsContracting := [1]
  rhsContracting := [0]
  lhsNonContracting := [0]
  rhsNonContracting := [1]
  lhsBatch := []
  rhsBatch := []
  wf := dot_S1024x256_S256x1536_S1024x1536_1_0_0_1_n_n_wf
def dot_S1024x64_S64x1536_S1024x1536_1_0_0_1_n_n : DotDims S1024x64 S64x1536 S1024x1536 where
  lhsContracting := [1]
  rhsContracting := [0]
  lhsNonContracting := [0]
  rhsNonContracting := [1]
  lhsBatch := []
  rhsBatch := []
  wf := dot_S1024x64_S64x1536_S1024x1536_1_0_0_1_n_n_wf
def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S512x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v17_0) S1024x1.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v17_1) S1024x512.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x64 : Shape := ⟨2, ![65536, 64]⟩
abbrev S1x65536x512 : Shape := ⟨3, ![1, 65536, 512]⟩
abbrev S1536x320 : Shape := ⟨2, ![1536, 320]⟩
abbrev S1536x512 : Shape := ⟨2, ![1536, 512]⟩
abbrev S1536 : Shape := ⟨1, ![1536]⟩
abbrev S1024x512 : Shape := ⟨2, ![1024, 512]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S65536x320 : Shape := ⟨2, ![65536, 320]⟩
abbrev S65536x512 : Shape := ⟨2, ![65536, 512]⟩
abbrev S320x1536 : Shape := ⟨2, ![320, 1536]⟩
abbrev S65536x1536 : Shape := ⟨2, ![65536, 1536]⟩
abbrev S1x1536 : Shape := ⟨2, ![1, 1536]⟩
abbrev S512x1536 : Shape := ⟨2, ![512, 1536]⟩
abbrev S_ : Shape := ⟨0, ![]⟩
abbrev S512x1024 : Shape := ⟨2, ![512, 1024]⟩
abbrev S65536x1024 : Shape := ⟨2, ![65536, 1024]⟩
abbrev S1024x1 : Shape := ⟨2, ![1024, 1]⟩
abbrev S65536x1 : Shape := ⟨2, ![65536, 1]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x64, .f32⟩
  | .hbm, ⟨2, _⟩ => ⟨S1x65536x512, .f32⟩
  | .hbm, ⟨3, _⟩ => ⟨S1536x320, .f32⟩
  | .hbm, ⟨4, _⟩ => ⟨S1536x512, .f32⟩
  | .hbm, ⟨5, _⟩ => ⟨S1536, .f32⟩
  | .hbm, ⟨6, _⟩ => ⟨S1536, .f32⟩
  | .hbm, ⟨7, _⟩ => ⟨S1024x512, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1x1024, .f32⟩
  | .hbm, ⟨12, _⟩ => ⟨S1, .f32⟩
  | .hbm, ⟨13, _⟩ => ⟨S65536x320, .f32⟩
  | .hbm, ⟨14, _⟩ => ⟨S65536x512, .f32⟩
  | .hbm, ⟨15, _⟩ => ⟨S320x1536, .f32⟩
  | .hbm, ⟨16, _⟩ => ⟨S65536x1536, .f32⟩
  | .hbm, ⟨17, _⟩ => ⟨S1x1536, .f32⟩
  | .hbm, ⟨18, _⟩ => ⟨S65536x1536, .f32⟩
  | .hbm, ⟨19, _⟩ => ⟨S65536x1536, .f32⟩
  | .hbm, ⟨20, _⟩ => ⟨S512x1536, .f32⟩
  | .hbm, ⟨21, _⟩ => ⟨S65536x1536, .f32⟩
  | .hbm, ⟨22, _⟩ => ⟨S1x1536, .f32⟩
  | .hbm, ⟨23, _⟩ => ⟨S65536x1536, .f32⟩
  | .hbm, ⟨24, _⟩ => ⟨S65536x1536, .f32⟩
  | .hbm, ⟨25, _⟩ => ⟨S65536x512, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S_, .f32⟩
  | .hbm, ⟨35, _⟩ => ⟨S65536x512, .f32⟩
  | .hbm, ⟨36, _⟩ => ⟨S65536x512, .f32⟩
  | .hbm, ⟨37, _⟩ => ⟨S_, .f32⟩
  | .hbm, ⟨38, _⟩ => ⟨S65536x512, .f32⟩
  | .hbm, ⟨39, _⟩ => ⟨S65536x512, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S_, .f32⟩
  | .hbm, ⟨44, _⟩ => ⟨S65536x512, .f32⟩
  | .hbm, ⟨45, _⟩ => ⟨S65536x512, .f32⟩
  | .hbm, ⟨46, _⟩ => ⟨S_, .f32⟩
  | .hbm, ⟨47, _⟩ => ⟨S65536x512, .f32⟩
  | .hbm, ⟨48, _⟩ => ⟨S65536x512, .f32⟩
  | .hbm, ⟨49, _⟩ => ⟨S65536x512, .f32⟩
  | .hbm, ⟨50, _⟩ => ⟨S65536x512, .f32⟩
  | .hbm, ⟨51, _⟩ => ⟨S65536x512, .f32⟩
  | .hbm, ⟨52, _⟩ => ⟨S_, .f32⟩
  | .hbm, ⟨53, _⟩ => ⟨S65536x512, .f32⟩
  | .hbm, ⟨54, _⟩ => ⟨S65536x512, .f32⟩
  | .hbm, ⟨55, _⟩ => ⟨S65536x512, .f32⟩
  | .hbm, ⟨56, _⟩ => ⟨S65536x512, .f32⟩
  | .hbm, ⟨57, _⟩ => ⟨S65536x512, .f32⟩
  | .hbm, ⟨58, _⟩ => ⟨S512x1024, .f32⟩
  | .hbm, ⟨59, _⟩ => ⟨S65536x1024, .f32⟩
  | .hbm, ⟨60, _⟩ => ⟨S1x1024, .f32⟩
  | .hbm, ⟨61, _⟩ => ⟨S65536x1024, .f32⟩
  | .hbm, ⟨62, _⟩ => ⟨S65536x1024, .f32⟩
  | .hbm, ⟨63, _⟩ => ⟨S_, .f32⟩
  | .hbm, ⟨64, _⟩ => ⟨S65536x1024, .f32⟩
  | .hbm, ⟨65, _⟩ => ⟨S65536x1024, .f32⟩
  | .hbm, ⟨66, _⟩ => ⟨S1024x1024, .f32⟩
  | .hbm, ⟨67, _⟩ => ⟨S65536x1024, .f32⟩
  | .hbm, ⟨68, _⟩ => ⟨S1x1024, .f32⟩
  | .hbm, ⟨69, _⟩ => ⟨S65536x1024, .f32⟩
  | .hbm, ⟨70, _⟩ => ⟨S65536x1024, .f32⟩
  | .hbm, ⟨71, _⟩ => ⟨S_, .f32⟩
  | .hbm, ⟨72, _⟩ => ⟨S65536x1024, .f32⟩
  | .hbm, ⟨73, _⟩ => ⟨S65536x1024, .f32⟩
  | .hbm, ⟨74, _⟩ => ⟨S1024x1, .f32⟩
  | .hbm, ⟨75, _⟩ => ⟨S65536x1, .f32⟩
  | .hbm, ⟨76, _⟩ => ⟨S1x1, .f32⟩
  | .hbm, ⟨77, _⟩ => ⟨S65536x1, .f32⟩
  | .hbm, ⟨78, _⟩ => ⟨S65536x1, .f32⟩
  | .hbm, ⟨79, _⟩ => ⟨S1x65536x512, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call0_cst : Ref sig .tc := ⟨.hbm, 63, rfl⟩
abbrev main_call0_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  concatenates_S65536x256_S65536x64_S65536x320_d1 : Shape.Concatenates [S65536x256, S65536x64] S65536x320 1
  shapeCasts_S1x65536x512_S65536x512 : S1x65536x512.ShapeCasts S65536x512
  transposes_S1536x320_S320x1536_1_0 : S1536x320.Transposes [1, 0] S320x1536
  bcast_S1536_S1x1536_1 : S1536.BroadcastsInDim S1x1536 (![1] : Fin 1 → Fin S1x1536.rank)
  bcast_S1x1536_S65536x1536_0_1 : S1x1536.BroadcastsInDim S65536x1536 (![0, 1] : Fin 2 → Fin S65536x1536.rank)
  transposes_S1536x512_S512x1536_1_0 : S1536x512.Transposes [1, 0] S512x1536
  slices_S65536x1536_S65536x512_0_0 : S65536x1536.Slices ![0, 0] S65536x512
  slices_S65536x1536_S65536x512_0_512 : S65536x1536.Slices ![0, 512] S65536x512
  slices_S65536x1536_S65536x512_0_1024 : S65536x1536.Slices ![0, 1024] S65536x512
  bcast_S_S65536x512 : S_.BroadcastsInDim S65536x512 (![] : Fin 0 → Fin S65536x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  transposes_S1024x1024_S1024x1024_1_0 : S1024x1024.Transposes [1, 0] S1024x1024
  transposes_S1x1024_S1024x1_1_0 : S1x1024.Transposes [1, 0] S1024x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S65536x512_S1x65536x512_1_2 : S65536x512.BroadcastsInDim S1x65536x512 (![1, 2] : Fin 2 → Fin S1x65536x512.rank)
  dot_S65536x320_S320x1536_S65536x1536_1_0_0_1_n_n_wf : DotDims.WF S65536x320 S320x1536 S65536x1536 [1] [0] [0] [1] [] []
  dot_S65536x512_S512x1536_S65536x1536_1_0_0_1_n_n_wf : DotDims.WF S65536x512 S512x1536 S65536x1536 [1] [0] [0] [1] [] []
  dot_S65536x512_S512x1024_S65536x1024_1_0_0_1_n_n_wf : DotDims.WF S65536x512 S512x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x1_S65536x1_1_0_0_1_n_n_wf : DotDims.WF S65536x1024 S1024x1 S65536x1 [1] [0] [0] [1] [] []

variable [Facts₀]

def dot_S65536x320_S320x1536_S65536x1536_1_0_0_1_n_n : DotDims S65536x320 S320x1536 S65536x1536 where
  lhsContracting := [1]
  rhsContracting := [0]
  lhsNonContracting := [0]
  rhsNonContracting := [1]
  lhsBatch := []
  rhsBatch := []
  wf := dot_S65536x320_S320x1536_S65536x1536_1_0_0_1_n_n_wf
def dot_S65536x512_S512x1536_S65536x1536_1_0_0_1_n_n : DotDims S65536x512 S512x1536 S65536x1536 where
  lhsContracting := [1]
  rhsContracting := [0]
  lhsNonContracting := [0]
  rhsNonContracting := [1]
  lhsBatch := []
  rhsBatch := []
  wf := dot_S65536x512_S512x1536_S65536x1536_1_0_0_1_n_n_wf
def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x1_S65536x1_1_0_0_1_n_n : DotDims S65536x1024 S1024x1 S65536x1 where
  lhsContracting := [1]
  rhsContracting := [0]
  lhsNonContracting := [0]
  rhsNonContracting := [1]
  lhsBatch := []
  rhsBatch := []
  wf := dot_S65536x1024_S1024x1_S65536x1_1_0_0_1_n_n_wf

class Facts : Prop extends Facts₀ where

variable [Facts]
-- ==== Proof.Spec.lean ====
/-
  One row of a gated recurrent cell, and the three-layer rectified head that reads it, on the extended reals.

  A row of the batch carries a state vector s (256 entries), an action vector a (64) and a hidden vector h (512).
  With the input weights split by rows into wS (256 × 1536) and wA (64 × 1536), the hidden weights wH (512 × 1536)
  and the two bias rows, the gate pre-activations of the row are
      gi j = (Σ_k s k · wS k j + Σ_k a k · wA k j) + bi j          gh j = Σ_k h k · wH k j + bh j,
  the 1536 columns being three groups of 512 lanes: reset, update, candidate. Lane q of the new hidden vector is
      r = σ (gi q + gh q)      z = σ (gi (512 + q) + gh (512 + q))      n = tanh (gi (1024 + q) + r · gh (1024 + q))
      h' q = (1 − z) · n + z · h q,
  σ the logistic function 1 / (1 + e^(−x)). The head is x₁ = max (h' · W₁ + b₁, 0), x₂ = max (x₁ · W₂ + b₂, 0) and the
  value Σ_k x₂ k · w₃ k + b₃.

  Then the same over whole arrays: the new hidden array and the value column as functions of the thirteen argument
  arrays, row by row (weights are stored with one row per output column, so they are read transposed; the input
  weights' 320 columns are the 256 state columns followed by the 64 action columns).

  Last, the one law the comparison of two ways of computing gi needs: a sum of 320 terms is the sum of its first 256
  and of its last 64. It holds in any commutative monoid; on the extended reals it needs no finiteness.
-/
import Idealize.ShloMosaic.PureOps.Ideal
import Idealize.ShloMosaic.Lib.ValueIdx
import Mathlib.Algebra.BigOperators.Fin

noncomputable section

open scoped BigOperators

namespace Cert.Cell

open Idealize.ShloMosaic Idealize.ShloMosaic.ValueIdx

/-- The extended real that the float word of 1.0 denotes (it is 1; nothing here evaluates it). -/
abbrev one : EReal := Ideal.ofBits .f32 0x3F800000#32
/-- The extended real that the float word of 0.0 denotes. -/
abbrev zero : EReal := Ideal.ofBits .f32 0x00000000#32

/-- Lane q of the reset group among the 1536 gate columns. -/
def laneR (q : Fin 512) : Fin 1536 := ⟨q.val, by have := q.isLt; omega⟩
/-- Lane q of the update group. -/
def laneZ (q : Fin 512) : Fin 1536 := ⟨512 + q.val, by have := q.isLt; omega⟩
/-- Lane q of the candidate group. -/
def laneN (q : Fin 512) : Fin 1536 := ⟨1024 + q.val, by have := q.isLt; omega⟩

/-! ## One row -/

/-- The input-side gate pre-activations of a row: the state's and the action's products, summed, plus the bias. -/
def gi (s : Fin 256 → EReal) (a : Fin 64 → EReal) (wS : Fin 256 → Fin 1536 → EReal) (wA : Fin 64 → Fin 1536 → EReal)
    (bi : Fin 1536 → EReal) (j : Fin 1536) : EReal :=
  (∑ k : Fin 256, s k * wS k j + ∑ k : Fin 64, a k * wA k j) + bi j

/-- The hidden-side gate pre-activations of a row. -/
def gh (h : Fin 512 → EReal) (wH : Fin 512 → Fin 1536 → EReal) (bh : Fin 1536 → EReal) (j : Fin 1536) : EReal :=
  ∑ k : Fin 512, h k * wH k j + bh j

/-- The reset gate of lane q. -/
def gateR (s : Fin 256 → EReal) (a : Fin 64 → EReal) (h : Fin 512 → EReal) (wS : Fin 256 → Fin 1536 → EReal)
    (wA : Fin 64 → Fin 1536 → EReal) (wH : Fin 512 → Fin 1536 → EReal) (bi bh : Fin 1536 → EReal) (q : Fin 512) : EReal :=
  Ideal.logistic (gi s a wS wA bi (laneR q) + gh h wH bh (laneR q))

/-- The update gate of lane q. -/
def gateZ (s : Fin 256 → EReal) (a : Fin 64 → EReal) (h : Fin 512 → EReal) (wS : Fin 256 → Fin 1536 → EReal)
    (wA : Fin 64 → Fin 1536 → EReal) (wH : Fin 512 → Fin 1536 → EReal) (bi bh : Fin 1536 → EReal) (q : Fin 512) : EReal :=
  Ideal.logistic (gi s a wS wA bi (laneZ q) + gh h wH bh (laneZ q))

/-- The candidate of lane q: the hidden side enters through the reset gate. -/
def cand (s : Fin 256 → EReal) (a : Fin 64 → EReal) (h : Fin 512 → EReal) (wS : Fin 256 → Fin 1536 → EReal)
    (wA : Fin 64 → Fin 1536 → EReal) (wH : Fin 512 → Fin 1536 → EReal) (bi bh : Fin 1536 → EReal) (q : Fin 512) : EReal :=
  Ideal.tanh (gi s a wS wA bi (laneN q) + gateR s a h wS wA wH bi bh q * gh h wH bh (laneN q))

/-- Lane q of the row's new hidden vector. -/
def hnew (s : Fin 256 → EReal) (a : Fin 64 → EReal) (h : Fin 512 → EReal) (wS : Fin 256 → Fin 1536 → EReal)
    (wA : Fin 64 → Fin 1536 → EReal) (wH : Fin 512 → Fin 1536 → EReal) (bi bh : Fin 1536 → EReal) (q : Fin 512) : EReal :=
  (one - gateZ s a h wS wA wH bi bh q) * cand s a h wS wA wH bi bh q + gateZ s a h wS wA wH bi bh q * h q

/-- One rectified affine layer of a row: max (x · W + b, 0) at output j. -/
def layer {n k : ℕ} (x : Fin n → EReal) (W : Fin n → Fin k → EReal) (b : Fin k → EReal) (j : Fin k) : EReal :=
  max (∑ i : Fin n, x i * W i j + b j) zero

/-- The last, one-output affine layer of a row. -/
def value {n : ℕ} (x : Fin n → EReal) (w : Fin n → EReal) (b : EReal) : EReal := ∑ k : Fin n, x k * w k + b

/-- The head of a row: two rectified layers, then the one-output layer. -/
def head (hn : Fin 512 → EReal) (W1 : Fin 512 → Fin 1024 → EReal) (b1 : Fin 1024 → EReal)
    (W2 : Fin 1024 → Fin 1024 → EReal) (b2 : Fin 1024 → EReal) (w3 : Fin 1024 → EReal) (b3 : EReal) : EReal :=
  value (layer (layer hn W1 b1) W2 b2) w3 b3

/-! ## Whole arrays -/

/-- Row i of a matrix. -/
abbrev row {n m : ℕ} (x : FVec Ideal ⟨2, ![n, m]⟩ .f32) (i : Fin n) : Fin m → EReal := fun k => x (ix2 i k)
/-- A matrix by coordinates. -/
abbrev mat {n m : ℕ} (x : FVec Ideal ⟨2, ![n, m]⟩ .f32) : Fin n → Fin m → EReal := fun i k => x (ix2 i k)
/-- A matrix by coordinates, read transposed. -/
abbrev matT {n m : ℕ} (x : FVec Ideal ⟨2, ![n, m]⟩ .f32) : Fin m → Fin n → EReal := fun k i => x (ix2 i k)
/-- A vector by its coordinate. -/
abbrev vec {n : ℕ} (x : FVec Ideal ⟨1, ![n]⟩ .f32) : Fin n → EReal := fun k => x (ix1 k)

/-- The input weights that multiply the state: columns 0 … 255 of each of the 1536 stored rows. -/
def wState (wih : FVec Ideal ⟨2, ![1536, 320]⟩ .f32) : Fin 256 → Fin 1536 → EReal :=
  fun k j => wih (ix2 j (⟨k.val, by have := k.isLt; omega⟩ : Fin 320))
/-- The input weights that multiply the action: columns 256 … 319. -/
def wAction (wih : FVec Ideal ⟨2, ![1536, 320]⟩ .f32) : Fin 64 → Fin 1536 → EReal :=
  fun k j => wih (ix2 j (⟨256 + k.val, by have := k.isLt; omega⟩ : Fin 320))

/-- Row i of the new hidden array, from the argument arrays. -/
def hnewRow (st : FVec Ideal ⟨2, ![65536, 256]⟩ .f32) (ac : FVec Ideal ⟨2, ![65536, 64]⟩ .f32)
    (hid : FVec Ideal ⟨3, ![1, 65536, 512]⟩ .f32) (wih : FVec Ideal ⟨2, ![1536, 320]⟩ .f32)
    (whh : FVec Ideal ⟨2, ![1536, 512]⟩ .f32) (bih bhh : FVec Ideal ⟨1, ![1536]⟩ .f32) (i : Fin 65536) : Fin 512 → EReal :=
  hnew (row st i) (row ac i) (fun k => hid (ix3 (0 : Fin 1) i k)) (wState wih) (wAction wih) (matT whh) (vec bih) (vec bhh)

/-- The new hidden array (65536 × 512). -/
def hnewArr (st : FVec Ideal ⟨2, ![65536, 256]⟩ .f32) (ac : FVec Ideal ⟨2, ![65536, 64]⟩ .f32)
    (hid : FVec Ideal ⟨3, ![1, 65536, 512]⟩ .f32) (wih : FVec Ideal ⟨2, ![1536, 320]⟩ .f32)
    (whh : FVec Ideal ⟨2, ![1536, 512]⟩ .f32) (bih bhh : FVec Ideal ⟨1, ![1536]⟩ .f32) : FVec Ideal ⟨2, ![65536, 512]⟩ .f32 :=
  fun j => hnewRow st ac hid wih whh bih bhh (j 0) (j 1)

/-- The value column (65536 × 1). -/
def valueArr (st : FVec Ideal ⟨2, ![65536, 256]⟩ .f32) (ac : FVec Ideal ⟨2, ![65536, 64]⟩ .f32)
    (hid : FVec Ideal ⟨3, ![1, 65536, 512]⟩ .f32) (wih : FVec Ideal ⟨2, ![1536, 320]⟩ .f32)
    (whh : FVec Ideal ⟨2, ![1536, 512]⟩ .f32) (bih bhh : FVec Ideal ⟨1, ![1536]⟩ .f32)
    (w1 : FVec Ideal ⟨2, ![1024, 512]⟩ .f32) (b1 : FVec Ideal ⟨1, ![1024]⟩ .f32)
    (w2 : FVec Ideal ⟨2, ![1024, 1024]⟩ .f32) (b2 : FVec Ideal ⟨1, ![1024]⟩ .f32)
    (w3 : FVec Ideal ⟨2, ![1, 1024]⟩ .f32) (b3 : FVec Ideal ⟨1, ![1]⟩ .f32) : FVec Ideal ⟨2, ![65536, 1]⟩ .f32 :=
  fun j => head (hnewRow st ac hid wih whh bih bhh (j 0)) (matT w1) (vec b1) (matT w2) (vec b2) (row w3 0) (b3 (ix1 (0 : Fin 1)))

/-! ## The sum over the concatenated columns -/

/-- A sum of 320 terms is the sum of its first 256 and of its last 64. -/
theorem sum_320 {M : Type*} [AddCommMonoid M] (f : Fin 320 → M) :
    ∑ k : Fin 320, f k
      = ∑ k : Fin 256, f ⟨k.val, by have := k.isLt; omega⟩ + ∑ k : Fin 64, f ⟨256 + k.val, by have := k.isLt; omega⟩ :=
  Fin.sum_univ_add (a := 256) (b := 64) f

end Cert.Cell

end
-- ==== Proof.Entry.lean ====
/-
  The arrays the grid's points read, as the region finds them, and each point's blocks of them.

  Before the region the host re-lays the arguments: the hidden array loses its leading unit axis, every weight matrix
  is transposed (and narrowed in format, which changes nothing on the extended reals), the transposed input weights
  are cut into their first 256 and last 64 rows, and each bias vector gains a leading unit axis. So at the region's
  entry every staged array is an argument read at permuted coordinates.

  Point t of the 64 stages rows 1024·t … 1024·t + 1023 of the state, the action and the hidden array, and the whole of
  every weight and bias array: an entry (p, k) of a row block is the array's entry (1024·t + p, k), and an entry of a
  whole-array block is the array's entry at the same coordinates.
-/
import proofs.«112870_j57406532878787_2_alg».proof.Proof.Gen.KernelIdeal.Frame
import proofs.«112870_j57406532878787_2_alg».proof.Proof.Spec
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.StableHlo Idealize.ShloMosaic.ValueIdx
open Idealize.ShloMosaic.Pipeline (Dat)

namespace Cert.KernelIdeal.Entry

open Cert.KernelIdeal Cert.KernelIdeal.Gen

/-! ## The host's re-layings read at an entry -/

/-- Dropping the leading unit axis: entry (i, k) reads (0, i, k). -/
theorem read_hidden (x : FVec Ideal S1x65536x512 .f32) (i : Fin 65536) (k : Fin 512) :
    shapeCast S65536x512 x shapeCasts_S1x65536x512_S65536x512 (ix2 i k) = x (ix3 (0 : Fin 1) i k) :=
  shapeCast_apply x shapeCasts_S1x65536x512_S65536x512 (ix2 i k) (ix3 (0 : Fin 1) i k) (by
    rw [Shape.rowMajor_val_three, Shape.rowMajor_val_two]
    show (0 * 65536 + i.val) * 512 + k.val = i.val * 512 + k.val
    omega)

/-- Row k < 256 of the transposed input weights is column k of the stored ones. -/
theorem read_wState (x : FVec Ideal S1536x320 .f32) (k : Fin 256) (j : Fin 1536) :
    extractStridedSlice S256x1536 ![0, 0] (truncf (F := Ideal) .bf16 (transpose S320x1536 [1, 0] x transposes_S1536x320_S320x1536_1_0) bitsLt_bf16_f32) slices_S320x1536_S256x1536_0_0 (ix2 k j)
      = Cert.Cell.wState x k j := by
  refine (extractStridedSlice_apply ![0, 0] _ slices_S320x1536_S256x1536_0_0 (ix2 k j)
    (ix2 (⟨k.val, by have := k.isLt; omega⟩ : Fin 320) j) (fun a => match a with
      | ⟨0, _⟩ => by show k.val = 0 + k.val; omega
      | ⟨1, _⟩ => by show j.val = 0 + j.val; omega)).trans ?_
  exact transpose_apply [1, 0] x transposes_S1536x320_S320x1536_1_0 (ix2 (⟨k.val, by have := k.isLt; omega⟩ : Fin 320) j)
    (ix2 j (⟨k.val, by have := k.isLt; omega⟩ : Fin 320)) (fun b => match b with
      | ⟨0, _⟩ => rfl
      | ⟨1, _⟩ => rfl)

/-- Row k < 64 of the last 64 rows of the transposed input weights is column 256 + k of the stored ones. -/
theorem read_wAction (x : FVec Ideal S1536x320 .f32) (k : Fin 64) (j : Fin 1536) :
    extractStridedSlice S64x1536 ![256, 0] (truncf (F := Ideal) .bf16 (transpose S320x1536 [1, 0] x transposes_S1536x320_S320x1536_1_0) bitsLt_bf16_f32) slices_S320x1536_S64x1536_256_0 (ix2 k j)
      = Cert.Cell.wAction x k j := by
  refine (extractStridedSlice_apply ![256, 0] _ slices_S320x1536_S64x1536_256_0 (ix2 k j)
    (ix2 (⟨256 + k.val, by have := k.isLt; omega⟩ : Fin 320) j) (fun a => match a with
      | ⟨0, _⟩ => by show 256 + k.val = 256 + k.val; omega
      | ⟨1, _⟩ => by show j.val = 0 + j.val; omega)).trans ?_
  exact transpose_apply [1, 0] x transposes_S1536x320_S320x1536_1_0 (ix2 (⟨256 + k.val, by have := k.isLt; omega⟩ : Fin 320) j)
    (ix2 j (⟨256 + k.val, by have := k.isLt; omega⟩ : Fin 320)) (fun b => match b with
      | ⟨0, _⟩ => rfl
      | ⟨1, _⟩ => rfl)

/-- A transposed (and narrowed) weight matrix at (k, j) is the stored one at (j, k). -/
theorem read_whh (x : FVec Ideal S1536x512 .f32) (k : Fin 512) (j : Fin 1536) :
    truncf (F := Ideal) .bf16 (transpose S512x1536 [1, 0] x transposes_S1536x512_S512x1536_1_0) bitsLt_bf16_f32 (ix2 k j) = x (ix2 j k) :=
  transpose_apply [1, 0] x transposes_S1536x512_S512x1536_1_0 (ix2 k j) (ix2 j k) (fun b => match b with
    | ⟨0, _⟩ => rfl
    | ⟨1, _⟩ => rfl)

theorem read_w1 (x : FVec Ideal S1024x512 .f32) (k : Fin 512) (j : Fin 1024) :
    truncf (F := Ideal) .bf16 (transpose S512x1024 [1, 0] x transposes_S1024x512_S512x1024_1_0) bitsLt_bf16_f32 (ix2 k j) = x (ix2 j k) :=
  transpose_apply [1, 0] x transposes_S1024x512_S512x1024_1_0 (ix2 k j) (ix2 j k) (fun b => match b with
    | ⟨0, _⟩ => rfl
    | ⟨1, _⟩ => rfl)

theorem read_w2 (x : FVec Ideal S1024x1024 .f32) (k : Fin 1024) (j : Fin 1024) :
    truncf (F := Ideal) .bf16 (transpose S1024x1024 [1, 0] x transposes_S1024x1024_S1024x1024_1_0) bitsLt_bf16_f32 (ix2 k j) = x (ix2 j k) :=
  transpose_apply [1, 0] x transposes_S1024x1024_S1024x1024_1_0 (ix2 k j) (ix2 j k) (fun b => match b with
    | ⟨0, _⟩ => rfl
    | ⟨1, _⟩ => rfl)

/-- A vector given a leading unit axis: entry (0, j) reads j. -/
theorem read_row1536 (x : FVec Ideal S1536 .f32) (j : Fin 1536) :
    shapeCast S1x1536 x shapeCasts_S1536_S1x1536 (ix2 (0 : Fin 1) j) = x (ix1 j) :=
  shapeCast_apply x shapeCasts_S1536_S1x1536 (ix2 (0 : Fin 1) j) (ix1 j) (by
    rw [Shape.rowMajor_val_one, Shape.rowMajor_val_two]
    show j.val = 0 * 1536 + j.val
    omega)

theorem read_row1024 (x : FVec Ideal S1024 .f32) (j : Fin 1024) :
    shapeCast S1x1024 x shapeCasts_S1024_S1x1024 (ix2 (0 : Fin 1) j) = x (ix1 j) :=
  shapeCast_apply x shapeCasts_S1024_S1x1024 (ix2 (0 : Fin 1) j) (ix1 j) (by
    rw [Shape.rowMajor_val_one, Shape.rowMajor_val_two]
    show j.val = 0 * 1024 + j.val
    omega)

theorem read_row1 (x : FVec Ideal S1 .f32) :
    shapeCast S1x1 x shapeCasts_S1_S1x1 (ix2 (0 : Fin 1) (0 : Fin 1)) = x (ix1 (0 : Fin 1)) :=
  shapeCast_apply x shapeCasts_S1_S1x1 (ix2 (0 : Fin 1) (0 : Fin 1)) (ix1 (0 : Fin 1)) (by
    rw [Shape.rowMajor_val_one, Shape.rowMajor_val_two]
    rfl)

/-! ## The staged arrays at the region's entry -/

variable (m : (ℓ : Loc nD τ sig) → Buf (Elt Ideal) ℓ)

theorem V_v0 (c : Dev nD) : V m c main_v0 = shapeCast S65536x512 (m ((c : Thread nD τ).loc main_arg2)) shapeCasts_S1x65536x512_S65536x512 := by
  show StableHlo.after hostOps0 (fun b => m (c, b)) (Proc.devRef .tc main_v0) = _
  after_results
  rfl
theorem V_v3 (c : Dev nD) : V m c main_v3 = extractStridedSlice S256x1536 ![0, 0] (truncf (F := Ideal) .bf16 (transpose S320x1536 [1, 0] (m ((c : Thread nD τ).loc main_arg3)) transposes_S1536x320_S320x1536_1_0) bitsLt_bf16_f32) slices_S320x1536_S256x1536_0_0 := by
  show StableHlo.after hostOps0 (fun b => m (c, b)) (Proc.devRef .tc main_v3) = _
  after_results
theorem V_v4 (c : Dev nD) : V m c main_v4 = extractStridedSlice S64x1536 ![256, 0] (truncf (F := Ideal) .bf16 (transpose S320x1536 [1, 0] (m ((c : Thread nD τ).loc main_arg3)) transposes_S1536x320_S320x1536_1_0) bitsLt_bf16_f32) slices_S320x1536_S64x1536_256_0 := by
  show StableHlo.after hostOps0 (fun b => m (c, b)) (Proc.devRef .tc main_v4) = _
  after_results
theorem V_v6 (c : Dev nD) : V m c main_v6 = truncf (F := Ideal) .bf16 (transpose S512x1536 [1, 0] (m ((c : Thread nD τ).loc main_arg4)) transposes_S1536x512_S512x1536_1_0) bitsLt_bf16_f32 := by
  show StableHlo.after hostOps0 (fun b => m (c, b)) (Proc.devRef .tc main_v6) = _
  after_results
theorem V_v8 (c : Dev nD) : V m c main_v8 = truncf (F := Ideal) .bf16 (transpose S512x1024 [1, 0] (m ((c : Thread nD τ).loc main_arg7)) transposes_S1024x512_S512x1024_1_0) bitsLt_bf16_f32 := by
  show StableHlo.after hostOps0 (fun b => m (c, b)) (Proc.devRef .tc main_v8) = _
  after_results
theorem V_v10 (c : Dev nD) : V m c main_v10 = truncf (F := Ideal) .bf16 (transpose S1024x1024 [1, 0] (m ((c : Thread nD τ).loc main_arg9)) transposes_S1024x1024_S1024x1024_1_0) bitsLt_bf16_f32 := by
  show StableHlo.after hostOps0 (fun b => m (c, b)) (Proc.devRef .tc main_v10) = _
  after_results
theorem V_v11 (c : Dev nD) : V m c main_v11 = truncf (F := Ideal) .bf16 (m ((c : Thread nD τ).loc main_arg11)) bitsLt_bf16_f32 := by
  show StableHlo.after hostOps0 (fun b => m (c, b)) (Proc.devRef .tc main_v11) = _
  after_results
theorem V_v12 (c : Dev nD) : V m c main_v12 = shapeCast S1x1536 (m ((c : Thread nD τ).loc main_arg5)) shapeCasts_S1536_S1x1536 := by
  show StableHlo.after hostOps0 (fun b => m (c, b)) (Proc.devRef .tc main_v12) = _
  after_results
  rfl
theorem V_v13 (c : Dev nD) : V m c main_v13 = shapeCast S1x1536 (m ((c : Thread nD τ).loc main_arg6)) shapeCasts_S1536_S1x1536 := by
  show StableHlo.after hostOps0 (fun b => m (c, b)) (Proc.devRef .tc main_v13) = _
  after_results
  rfl
theorem V_v14 (c : Dev nD) : V m c main_v14 = shapeCast S1x1024 (m ((c : Thread nD τ).loc main_arg8)) shapeCasts_S1024_S1x1024 := by
  show StableHlo.after hostOps0 (fun b => m (c, b)) (Proc.devRef .tc main_v14) = _
  after_results
  rfl
theorem V_v15 (c : Dev nD) : V m c main_v15 = shapeCast S1x1024 (m ((c : Thread nD τ).loc main_arg10)) shapeCasts_S1024_S1x1024 := by
  show StableHlo.after hostOps0 (fun b => m (c, b)) (Proc.devRef .tc main_v15) = _
  after_results
  rfl
theorem V_v16 (c : Dev nD) : V m c main_v16 = shapeCast S1x1 (m ((c : Thread nD τ).loc main_arg12)) shapeCasts_S1_S1x1 := by
  show StableHlo.after hostOps0 (fun b => m (c, b)) (Proc.devRef .tc main_v16) = _
  after_results
  rfl

/-! ## The index maps, decided once over the 64 points -/

/-- The five row-block windows (three inputs, two outputs) are at block row t, column 0; every other window stays at
    block (0, 0). -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = t.val
    ∧ win0_14.index t (1 : Fin 2) = 0
    ∧ win0_15.index t (0 : Fin 2) = t.val
    ∧ win0_15.index t (1 : Fin 2) = 0 :=
  (by decide +kernel : ∀ t : Fin grid0.N, _)

/-- Row 1024·t + p is a row of the array: there are 64 points and 1024 rows in a block. -/
theorem rowOf_lt (t : Fin cfg0.N) (p : Fin 1024) : t.val * 1024 + p.val < 65536 := by
  have h : t.val < 64 := lt_of_lt_of_eq t.isLt (N_0 : cfg0.N = 64)
  have := p.isLt
  omega

/-- Row p of point t's row block is row 1024·t + p of the array. -/
def rowOf (t : Fin cfg0.N) (p : Fin 1024) : Fin 65536 := ⟨t.val * 1024 + p.val, rowOf_lt t p⟩

/-! ## Each point's blocks -/

theorem blk0_V (c : Dev nD) (t : Fin cfg0.N) (p : Fin 1024) (k : Fin 256) :
    (iblk m c 0 t : Vec Ideal S1024x256 .f32) (ix2 p k) = V m c main_arg0 (ix2 (rowOf t p) k) := by
  have e0 : win0_0.index t (0 : Fin 2) = t.val := (idx_facts t).1
  have e1 : win0_0.index t (1 : Fin 2) = 0 := (idx_facts t).2.1
  unfold iblk
  rw [View.read_apply]
  show V m c main_arg0 _ = V m c main_arg0 _
  congr 1
  funext a
  apply Fin.ext
  match a with
  | ⟨0, _⟩ => show win0_0.index t 0 * 1024 + 1 * p.val = t.val * 1024 + p.val; rw [e0]; omega
  | ⟨1, _⟩ => show win0_0.index t 1 * 256 + 1 * k.val = k.val; rw [e1]; omega

theorem blk1_V (c : Dev nD) (t : Fin cfg0.N) (p : Fin 1024) (k : Fin 64) :
    (iblk m c 1 t : Vec Ideal S1024x64 .f32) (ix2 p k) = V m c main_arg1 (ix2 (rowOf t p) k) := by
  have e0 : win0_1.index t (0 : Fin 2) = t.val := (idx_facts t).2.2.1
  have e1 : win0_1.index t (1 : Fin 2) = 0 := (idx_facts t).2.2.2.1
  unfold iblk
  rw [View.read_apply]
  show V m c main_arg1 _ = V m c main_arg1 _
  congr 1
  funext a
  apply Fin.ext
  match a with
  | ⟨0, _⟩ => show win0_1.index t 0 * 1024 + 1 * p.val = t.val * 1024 + p.val; rw [e0]; omega
  | ⟨1, _⟩ => show win0_1.index t 1 * 64 + 1 * k.val = k.val; rw [e1]; omega

theorem blk2_V (c : Dev nD) (t : Fin cfg0.N) (p : Fin 1024) (k : Fin 512) :
    (iblk m c 2 t : Vec Ideal S1024x512 .f32) (ix2 p k) = V m c main_v0 (ix2 (rowOf t p) k) := by
  have e0 : win0_2.index t (0 : Fin 2) = t.val := (idx_facts t).2.2.2.2.1
  have e1 : win0_2.index t (1 : Fin 2) = 0 := (idx_facts t).2.2.2.2.2.1
  unfold iblk
  rw [View.read_apply]
  show V m c main_v0 _ = V m c main_v0 _
  congr 1
  funext a
  apply Fin.ext
  match a with
  | ⟨0, _⟩ => show win0_2.index t 0 * 1024 + 1 * p.val = t.val * 1024 + p.val; rw [e0]; omega
  | ⟨1, _⟩ => show win0_2.index t 1 * 512 + 1 * k.val = k.val; rw [e1]; omega

theorem blk3_V (c : Dev nD) (t : Fin cfg0.N) (k : Fin 256) (j : Fin 1536) :
    (iblk m c 3 t : Vec Ideal S256x1536 .bf16) (ix2 k j) = V m c main_v3 (ix2 k j) := by
  have e0 : win0_3.index t (0 : Fin 2) = 0 := (idx_facts t).2.2.2.2.2.2.1
  have e1 : win0_3.index t (1 : Fin 2) = 0 := (idx_facts t).2.2.2.2.2.2.2.1
  unfold iblk
  rw [View.read_apply]
  show V m c main_v3 _ = V m c main_v3 _
  congr 1
  funext a
  apply Fin.ext
  match a with
  | ⟨0, _⟩ => show win0_3.index t 0 * 256 + 1 * k.val = k.val; rw [e0]; omega
  | ⟨1, _⟩ => show win0_3.index t 1 * 1536 + 1 * j.val = j.val; rw [e1]; omega

theorem blk4_V (c : Dev nD) (t : Fin cfg0.N) (k : Fin 64) (j : Fin 1536) :
    (iblk m c 4 t : Vec Ideal S64x1536 .bf16) (ix2 k j) = V m c main_v4 (ix2 k j) := by
  have e0 : win0_4.index t (0 : Fin 2) = 0 := (idx_facts t).2.2.2.2.2.2.2.2.1
  have e1 : win0_4.index t (1 : Fin 2) = 0 := (idx_facts t).2.2.2.2.2.2.2.2.2.1
  unfold iblk
  rw [View.read_apply]
  show V m c main_v4 _ = V m c main_v4 _
  congr 1
  funext a
  apply Fin.ext
  match a with
  | ⟨0, _⟩ => show win0_4.index t 0 * 64 + 1 * k.val = k.val; rw [e0]; omega
  | ⟨1, _⟩ => show win0_4.index t 1 * 1536 + 1 * j.val = j.val; rw [e1]; omega

theorem blk5_V (c : Dev nD) (t : Fin cfg0.N) (k : Fin 512) (j : Fin 1536) :
    (iblk m c 5 t : Vec Ideal S512x1536 .bf16) (ix2 k j) = V m c main_v6 (ix2 k j) := by
  have e0 : win0_5.index t (0 : Fin 2) = 0 := (idx_facts t).2.2.2.2.2.2.2.2.2.2.1
  have e1 : win0_5.index t (1 : Fin 2) = 0 := (idx_facts t).2.2.2.2.2.2.2.2.2.2.2.1
  unfold iblk
  rw [View.read_apply]
  show V m c main_v6 _ = V m c main_v6 _
  congr 1
  funext a
  apply Fin.ext
  match a with
  | ⟨0, _⟩ => show win0_5.index t 0 * 512 + 1 * k.val = k.val; rw [e0]; omega
  | ⟨1, _⟩ => show win0_5.index t 1 * 1536 + 1 * j.val = j.val; rw [e1]; omega

theorem blk6_V (c : Dev nD) (t : Fin cfg0.N) (k : Fin 1) (j : Fin 1536) :
    (iblk m c 6 t : Vec Ideal S1x1536 .f32) (ix2 k j) = V m c main_v12 (ix2 k j) := by
  have e0 : win0_6.index t (0 : Fin 2) = 0 := (idx_facts t).2.2.2.2.2.2.2.2.2.2.2.2.1
  have e1 : win0_6.index t (1 : Fin 2) = 0 := (idx_facts t).2.2.2.2.2.2.2.2.2.2.2.2.2.1
  unfold iblk
  rw [View.read_apply]
  show V m c main_v12 _ = V m c main_v12 _
  congr 1
  funext a
  apply Fin.ext
  match a with
  | ⟨0, _⟩ => show win0_6.index t 0 * 1 + 1 * k.val = k.val; rw [e0]; omega
  | ⟨1, _⟩ => show win0_6.index t 1 * 1536 + 1 * j.val = j.val; rw [e1]; omega

theorem blk7_V (c : Dev nD) (t : Fin cfg0.N) (k : Fin 1) (j : Fin 1536) :
    (iblk m c 7 t : Vec Ideal S1x1536 .f32) (ix2 k j) = V m c main_v13 (ix2 k j) := by
  have e0 : win0_7.index t (0 : Fin 2) = 0 := (idx_facts t).2.2.2.2.2.2.2.2.2.2.2.2.2.2.1
  have e1 : win0_7.index t (1 : Fin 2) = 0 := (idx_facts t).2.2.2.2.2.2.2.2.2.2.2.2.2.2.2.1
  unfold iblk
  rw [View.read_apply]
  show V m c main_v13 _ = V m c main_v13 _
  congr 1
  funext a
  apply Fin.ext
  match a with
  | ⟨0, _⟩ => show win0_7.index t 0 * 1 + 1 * k.val = k.val; rw [e0]; omega
  | ⟨1, _⟩ => show win0_7.index t 1 * 1536 + 1 * j.val = j.val; rw [e1]; omega

theorem blk8_V (c : Dev nD) (t : Fin cfg0.N) (k : Fin 512) (j : Fin 1024) :
    (iblk m c 8 t : Vec Ideal S512x1024 .bf16) (ix2 k j) = V m c main_v8 (ix2 k j) := by
  have e0 : win0_8.index t (0 : Fin 2) = 0 := (idx_facts t).2.2.2.2.2.2.2.2.2.2.2.2.2.2.2.2.1
  have e1 : win0_8.index t (1 : Fin 2) = 0 := (idx_facts t).2.2.2.2.2.2.2.2.2.2.2.2.2.2.2.2.2.1
  unfold iblk
  rw [View.read_apply]
  show V m c main_v8 _ = V m c main_v8 _
  congr 1
  funext a
  apply Fin.ext
  match a with
  | ⟨0, _⟩ => show win0_8.index t 0 * 512 + 1 * k.val = k.val; rw [e0]; omega
  | ⟨1, _⟩ => show win0_8.index t 1 * 1024 + 1 * j.val = j.val; rw [e1]; omega

theorem blk9_V (c : Dev nD) (t : Fin cfg0.N) (k : Fin 1) (j : Fin 1024) :
    (iblk m c 9 t : Vec Ideal S1x1024 .f32) (ix2 k j) = V m c main_v14 (ix2 k j) := by
  have e0 : win0_9.index t (0 : Fin 2) = 0 := (idx_facts t).2.2.2.2.2.2.2.2.2.2.2.2.2.2.2.2.2.2.1
  have e1 : win0_9.index t (1 : Fin 2) = 0 := (idx_facts t).2.2.2.2.2.2.2.2.2.2.2.2.2.2.2.2.2.2.2.1
  unfold iblk
  rw [View.read_apply]
  show V m c main_v14 _ = V m c main_v14 _
  congr 1
  funext a
  apply Fin.ext
  match a with
  | ⟨0, _⟩ => show win0_9.index t 0 * 1 + 1 * k.val = k.val; rw [e0]; omega
  | ⟨1, _⟩ => show win0_9.index t 1 * 1024 + 1 * j.val = j.val; rw [e1]; omega

theorem blk10_V (c : Dev nD) (t : Fin cfg0.N) (k : Fin 1024) (j : Fin 1024) :
    (iblk m c 10 t : Vec Ideal S1024x1024 .bf16) (ix2 k j) = V m c main_v10 (ix2 k j) := by
  have e0 : win0_10.index t (0 : Fin 2) = 0 := (idx_facts t).2.2.2.2.2.2.2.2.2.2.2.2.2.2.2.2.2.2.2.2.1
  have e1 : win0_10.index t (1 : Fin 2) = 0 := (idx_facts t).2.2.2.2.2.2.2.2.2.2.2.2.2.2.2.2.2.2.2.2.2.1
  unfold iblk
  rw [View.read_apply]
  show V m c main_v10 _ = V m c main_v10 _
  congr 1
  funext a
  apply Fin.ext
  match a with
  | ⟨0, _⟩ => show win0_10.index t 0 * 1024 + 1 * k.val = k.val; rw [e0]; omega
  | ⟨1, _⟩ => show win0_10.index t 1 * 1024 + 1 * j.val = j.val; rw [e1]; omega

theorem blk11_V (c : Dev nD) (t : Fin cfg0.N) (k : Fin 1) (j : Fin 1024) :
    (iblk m c 11 t : Vec Ideal S1x1024 .f32) (ix2 k j) = V m c main_v15 (ix2 k j) := by
  have e0 : win0_11.index t (0 : Fin 2) = 0 := (idx_facts t).2.2.2.2.2.2.2.2.2.2.2.2.2.2.2.2.2.2.2.2.2.2.1
  have e1 : win0_11.index t (1 : Fin 2) = 0 := (idx_facts t).2.2.2.2.2.2.2.2.2.2.2.2.2.2.2.2.2.2.2.2.2.2.2.1
  unfold iblk
  rw [View.read_apply]
  show V m c main_v15 _ = V m c main_v15 _
  congr 1
  funext a
  apply Fin.ext
  match a with
  | ⟨0, _⟩ => show win0_11.index t 0 * 1 + 1 * k.val = k.val; rw [e0]; omega
  | ⟨1, _⟩ => show win0_11.index t 1 * 1024 + 1 * j.val = j.val; rw [e1]; omega

theorem blk12_V (c : Dev nD) (t : Fin cfg0.N) (k : Fin 1) (j : Fin 1024) :
    (iblk m c 12 t : Vec Ideal S1x1024 .bf16) (ix2 k j) = V m c main_v11 (ix2 k j) := by
  have e0 : win0_12.index t (0 : Fin 2) = 0 := (idx_facts t).2.2.2.2.2.2.2.2.2.2.2.2.2.2.2.2.2.2.2.2.2.2.2.2.1
  have e1 : win0_12.index t (1 : Fin 2) = 0 := (idx_facts t).2.2.2.2.2.2.2.2.2.2.2.2.2.2.2.2.2.2.2.2.2.2.2.2.2.1
  unfold iblk
  rw [View.read_apply]
  show V m c main_v11 _ = V m c main_v11 _
  congr 1
  funext a
  apply Fin.ext
  match a with
  | ⟨0, _⟩ => show win0_12.index t 0 * 1 + 1 * k.val = k.val; rw [e0]; omega
  | ⟨1, _⟩ => show win0_12.index t 1 * 1024 + 1 * j.val = j.val; rw [e1]; omega

theorem blk13_V (c : Dev nD) (t : Fin cfg0.N) (k : Fin 1) (j : Fin 1) :
    (iblk m c 13 t : Vec Ideal S1x1 .f32) (ix2 k j) = V m c main_v16 (ix2 k j) := by
  have e0 : win0_13.index t (0 : Fin 2) = 0 := (idx_facts t).2.2.2.2.2.2.2.2.2.2.2.2.2.2.2.2.2.2.2.2.2.2.2.2.2.2.1
  have e1 : win0_13.index t (1 : Fin 2) = 0 := (idx_facts t).2.2.2.2.2.2.2.2.2.2.2.2.2.2.2.2.2.2.2.2.2.2.2.2.2.2.2.1
  unfold iblk
  rw [View.read_apply]
  show V m c main_v16 _ = V m c main_v16 _
  congr 1
  funext a
  apply Fin.ext
  match a with
  | ⟨0, _⟩ => show win0_13.index t 0 * 1 + 1 * k.val = k.val; rw [e0]; omega
  | ⟨1, _⟩ => show win0_13.index t 1 * 1 + 1 * j.val = j.val; rw [e1]; omega

/-! ## The blocks as entries of the arguments -/

theorem blk0 (c : Dev nD) (t : Fin cfg0.N) (p : Fin 1024) (k : Fin 256) :
    (iblk m c 0 t : Vec Ideal S1024x256 .f32) (ix2 p k) = (m ((c : Thread nD τ).loc main_arg0)) (ix2 (rowOf t p) k) := by
  rw [blk0_V, V_main_arg0]
theorem blk1 (c : Dev nD) (t : Fin cfg0.N) (p : Fin 1024) (k : Fin 64) :
    (iblk m c 1 t : Vec Ideal S1024x64 .f32) (ix2 p k) = (m ((c : Thread nD τ).loc main_arg1)) (ix2 (rowOf t p) k) := by
  rw [blk1_V, V_main_arg1]
theorem blk2 (c : Dev nD) (t : Fin cfg0.N) (p : Fin 1024) (k : Fin 512) :
    (iblk m c 2 t : Vec Ideal S1024x512 .f32) (ix2 p k) = (m ((c : Thread nD τ).loc main_arg2)) (ix3 (0 : Fin 1) (rowOf t p) k) := by
  rw [blk2_V, V_v0]; exact read_hidden _ _ _
theorem blk3 (c : Dev nD) (t : Fin cfg0.N) (k : Fin 256) (j : Fin 1536) :
    (iblk m c 3 t : Vec Ideal S256x1536 .bf16) (ix2 k j) = Cert.Cell.wState (m ((c : Thread nD τ).loc main_arg3)) k j := by
  rw [blk3_V, V_v3]; exact read_wState _ _ _
theorem blk4 (c : Dev nD) (t : Fin cfg0.N) (k : Fin 64) (j : Fin 1536) :
    (iblk m c 4 t : Vec Ideal S64x1536 .bf16) (ix2 k j) = Cert.Cell.wAction (m ((c : Thread nD τ).loc main_arg3)) k j := by
  rw [blk4_V, V_v4]; exact read_wAction _ _ _
theorem blk5 (c : Dev nD) (t : Fin cfg0.N) (k : Fin 512) (j : Fin 1536) :
    (iblk m c 5 t : Vec Ideal S512x1536 .bf16) (ix2 k j) = (m ((c : Thread nD τ).loc main_arg4)) (ix2 j k) := by
  rw [blk5_V, V_v6]; exact read_whh _ _ _
theorem blk6 (c : Dev nD) (t : Fin cfg0.N) (j : Fin 1536) :
    (iblk m c 6 t : Vec Ideal S1x1536 .f32) (ix2 (0 : Fin 1) j) = (m ((c : Thread nD τ).loc main_arg5)) (ix1 j) := by
  rw [blk6_V, V_v12]; exact read_row1536 _ _
theorem blk7 (c : Dev nD) (t : Fin cfg0.N) (j : Fin 1536) :
    (iblk m c 7 t : Vec Ideal S1x1536 .f32) (ix2 (0 : Fin 1) j) = (m ((c : Thread nD τ).loc main_arg6)) (ix1 j) := by
  rw [blk7_V, V_v13]; exact read_row1536 _ _
theorem blk8 (c : Dev nD) (t : Fin cfg0.N) (k : Fin 512) (j : Fin 1024) :
    (iblk m c 8 t : Vec Ideal S512x1024 .bf16) (ix2 k j) = (m ((c : Thread nD τ).loc main_arg7)) (ix2 j k) := by
  rw [blk8_V, V_v8]; exact read_w1 _ _ _
theorem blk9 (c : Dev nD) (t : Fin cfg0.N) (j : Fin 1024) :
    (iblk m c 9 t : Vec Ideal S1x1024 .f32) (ix2 (0 : Fin 1) j) = (m ((c : Thread nD τ).loc main_arg8)) (ix1 j) := by
  rw [blk9_V, V_v14]; exact read_row1024 _ _
theorem blk10 (c : Dev nD) (t : Fin cfg0.N) (k : Fin 1024) (j : Fin 1024) :
    (iblk m c 10 t : Vec Ideal S1024x1024 .bf16) (ix2 k j) = (m ((c : Thread nD τ).loc main_arg9)) (ix2 j k) := by
  rw [blk10_V, V_v10]; exact read_w2 _ _ _
theorem blk11 (c : Dev nD) (t : Fin cfg0.N) (j : Fin 1024) :
    (iblk m c 11 t : Vec Ideal S1x1024 .f32) (ix2 (0 : Fin 1) j) = (m ((c : Thread nD τ).loc main_arg10)) (ix1 j) := by
  rw [blk11_V, V_v15]; exact read_row1024 _ _
theorem blk12 (c : Dev nD) (t : Fin cfg0.N) (k : Fin 1024) :
    (iblk m c 12 t : Vec Ideal S1x1024 .bf16) (ix2 (0 : Fin 1) k) = (m ((c : Thread nD τ).loc main_arg11)) (ix2 (0 : Fin 1) k) := by
  rw [blk12_V, V_v11]; rfl
theorem blk13 (c : Dev nD) (t : Fin cfg0.N) :
    (iblk m c 13 t : Vec Ideal S1x1 .f32) (ix2 (0 : Fin 1) (0 : Fin 1)) = (m ((c : Thread nD τ).loc main_arg12)) (ix1 (0 : Fin 1)) := by
  rw [blk13_V, V_v16]; exact read_row1 _

end Cert.KernelIdeal.Entry

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.LibRows.lean ====
/-
  Rows of a matrix, read at an index, on the extended reals.

  For an a × b matrix v: the sum along the second axis, read at row p, is the sum over k of v (p, k); the maximum
  along the second axis, read at row p, is the fold of max over k of v (p, k) from the start value the accumulator
  word denotes; and one value per row, re-cast as an a × 1 column and laid across c columns ("keepdims", then a
  broadcast), reads at (p, q) the value of row p.  The index of the matrix that a row index with the coordinate k
  put back on the second axis names is (p, k).  All for any extents; nothing is evaluated.
-/
import proofs.«112870_j57406532878787_2_alg».proof.Proof.LibColumn
import Idealize.ShloMosaic.Lib.ValueIdx
import Idealize.ShloMosaic.Lib.Pipeline.Value
import Idealize.ShloMosaic.PureOps.Ideal.Laws

noncomputable section

namespace Cert.LibRows

open Idealize.ShloMosaic Idealize.ShloMosaic.ValueIdx

variable {a b : ℕ}

/-- The index of a matrix over row p with coordinate k put on the second axis is (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A sum along the second axis, read at row p: the sum of the row's entries. -/
theorem rowSum_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A maximum along the second axis, read at row p: the fold of max over the row's entries from the start value. -/
theorem rowMaxf_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (Finset.fold_congr fun k _ => congrArg v (lift_row h p k))

/-- One value per row, re-cast as a column and laid across c columns, read at (p, q): the value of row p. -/
theorem column_apply {α : Type} {c : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ u hc) hb (ix2 p q) = u (ix1 p) :=
  (Cert.LibColumn.broadcastTo_a1_ab_apply (shapeCast ⟨2, ![a, 1]⟩ u hc) hb p q).trans
    (Cert.LibColumn.shapeCast_a_a1_apply u hc p 0)

end Cert.LibRows

end
-- ==== Proof.Body.lean ====
/-
  One grid point's body, read at an entry of the blocks it stores.

  The body loads a 1024-row block of the state, the action and the hidden arrays and the whole weight and bias arrays,
  and stores a 1024 × 512 block of the new hidden array and a 1024 × 1 block of the value column. At row p of the
  block every stored entry depends on row p of the three loaded row blocks only: the new hidden entry at (p, q) is lane q
  of the cell applied to those rows, and the value at (p, 0) is the head applied to the row's new hidden vector.
-/
import proofs.«112870_j57406532878787_2_alg».proof.Proof.Gen.KernelIdeal.Skeleton
import proofs.«112870_j57406532878787_2_alg».proof.Proof.Spec
import proofs.«112870_j57406532878787_2_alg».proof.Proof.LibDot
import proofs.«112870_j57406532878787_2_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The input-side pre-activation block at (p, j): the two products of row p, summed, plus the bias row. -/
theorem pay2_apply (x0 : FVec Ideal S1024x256 .f32) (x1 : FVec Ideal S1024x64 .f32)
    (x3 : FVec Ideal S256x1536 .bf16) (x4 : FVec Ideal S64x1536 .bf16) (x6 : FVec Ideal S1x1536 .f32)
    (p : Fin 1024) (j : Fin 1536) :
    k0_pay2 (F := Ideal) x0 x1 x3 x4 x6 (ix2 p j)
      = Cert.Cell.gi (fun k => x0 (ix2 p k)) (fun k => x1 (ix2 p k)) (fun k j => x3 (ix2 k j))
          (fun k j => x4 (ix2 k j)) (fun j => x6 (ix2 (0 : Fin 1) j)) j := by
  unfold k0_pay2 Cert.Cell.gi
  refine congrArg₂ (· + ·) (congrArg₂ (· + ·) ?_ ?_) ?_
  · refine (Cert.LibDot.matmul_zero_plain_apply _ rfl rfl rfl rfl rfl rfl none _ _ (ix2 p j)).trans ?_
    refine Finset.sum_congr rfl fun k _ => ?_
    rw [shapeCast_self]
    rfl
  · refine (Cert.LibDot.matmul_zero_plain_apply _ rfl rfl rfl rfl rfl rfl none _ _ (ix2 p j)).trans ?_
    refine Finset.sum_congr rfl fun k _ => ?_
    rw [shapeCast_self]
    rfl
  · refine (broadcastTo_1b_ab_apply _ _ p j).trans ?_
    rw [shapeCast_self]

/-- The hidden-side pre-activation block at (p, j): the product of row p of the hidden block, plus the bias row. -/
theorem pay3_apply (x2 : FVec Ideal S1024x512 .f32) (x5 : FVec Ideal S512x1536 .bf16) (x7 : FVec Ideal S1x1536 .f32)
    (p : Fin 1024) (j : Fin 1536) :
    k0_pay3 (F := Ideal) x2 x5 x7 (ix2 p j)
      = Cert.Cell.gh (fun k => x2 (ix2 p k)) (fun k j => x5 (ix2 k j)) (fun j => x7 (ix2 (0 : Fin 1) j)) j := by
  unfold k0_pay3 k0_pay1 Cert.Cell.gh
  refine congrArg₂ (· + ·) ?_ ?_
  · refine (Cert.LibDot.matmul_zero_plain_apply _ rfl rfl rfl rfl rfl rfl none _ _ (ix2 p j)).trans ?_
    refine Finset.sum_congr rfl fun k _ => ?_
    rw [shapeCast_self, shapeCast_self]
    rfl
  · refine (broadcastTo_1b_ab_apply _ _ p j).trans ?_
    rw [shapeCast_self]

/-- A 512-lane slice of the 1536 gate columns at column offset o, read at (p, q): the block at (p, o + q). -/
theorem slice_apply (v : FVec Ideal S1024x1536 .f32) (o : Nat) (h : S1024x1536.Slices ![0, o] S1024x512)
    (p : Fin 1024) (q : Fin 512) (j : Fin 1536) (hj : j.val = o + q.val) :
    extractStridedSlice S1024x512 ![0, o] v h (ix2 p q) = v (ix2 p j) := by
  refine extractStridedSlice_apply ![0, o] v h (ix2 p q) (ix2 p j) fun a => ?_
  match a with
  | ⟨0, _⟩ => exact (Nat.zero_add _).symm
  | ⟨1, _⟩ => exact hj

/-- The update-gate block at (p, q). -/
theorem pay4_apply (x0 : FVec Ideal S1024x256 .f32) (x1 : FVec Ideal S1024x64 .f32) (x2 : FVec Ideal S1024x512 .f32)
    (x3 : FVec Ideal S256x1536 .bf16) (x4 : FVec Ideal S64x1536 .bf16) (x5 : FVec Ideal S512x1536 .bf16)
    (x6 x7 : FVec Ideal S1x1536 .f32) (p : Fin 1024) (q : Fin 512) :
    k0_pay4 (F := Ideal) x0 x1 x2 x3 x4 x6 x5 x7 (ix2 p q)
      = Cert.Cell.gateZ (fun k => x0 (ix2 p k)) (fun k => x1 (ix2 p k)) (fun k => x2 (ix2 p k))
          (fun k j => x3 (ix2 k j)) (fun k j => x4 (ix2 k j)) (fun k j => x5 (ix2 k j))
          (fun j => x6 (ix2 (0 : Fin 1) j)) (fun j => x7 (ix2 (0 : Fin 1) j)) q := by
  unfold k0_pay4 Cert.Cell.gateZ
  refine congrArg Ideal.logistic (congrArg₂ (· + ·) ?_ ?_)
  · exact (slice_apply _ 512 _ p q (Cert.Cell.laneZ q) rfl).trans (pay2_apply x0 x1 x3 x4 x6 p _)
  · exact (slice_apply _ 512 _ p q (Cert.Cell.laneZ q) rfl).trans (pay3_apply x2 x5 x7 p _)

/-- The candidate block at (p, q): the hidden side enters through the reset gate of the same lane. -/
theorem pay5_apply (x0 : FVec Ideal S1024x256 .f32) (x1 : FVec Ideal S1024x64 .f32) (x2 : FVec Ideal S1024x512 .f32)
    (x3 : FVec Ideal S256x1536 .bf16) (x4 : FVec Ideal S64x1536 .bf16) (x5 : FVec Ideal S512x1536 .bf16)
    (x6 x7 : FVec Ideal S1x1536 .f32) (p : Fin 1024) (q : Fin 512) :
    k0_pay5 (F := Ideal) x0 x1 x2 x3 x4 x6 x5 x7 (ix2 p q)
      = Cert.Cell.cand (fun k => x0 (ix2 p k)) (fun k => x1 (ix2 p k)) (fun k => x2 (ix2 p k))
          (fun k j => x3 (ix2 k j)) (fun k j => x4 (ix2 k j)) (fun k j => x5 (ix2 k j))
          (fun j => x6 (ix2 (0 : Fin 1) j)) (fun j => x7 (ix2 (0 : Fin 1) j)) q := by
  unfold k0_pay5 Cert.Cell.cand Cert.Cell.gateR
  refine congrArg Ideal.tanh (congrArg₂ (· + ·) ?_ (congrArg₂ (· * ·) (congrArg Ideal.logistic (congrArg₂ (· + ·) ?_ ?_)) ?_))
  · exact (slice_apply _ 1024 _ p q (Cert.Cell.laneN q) rfl).trans (pay2_apply x0 x1 x3 x4 x6 p _)
  · exact (slice_apply _ 0 _ p q (Cert.Cell.laneR q) (Nat.zero_add _).symm).trans (pay2_apply x0 x1 x3 x4 x6 p _)
  · exact (slice_apply _ 0 _ p q (Cert.Cell.laneR q) (Nat.zero_add _).symm).trans (pay3_apply x2 x5 x7 p _)
  · exact (slice_apply _ 1024 _ p q (Cert.Cell.laneN q) rfl).trans (pay3_apply x2 x5 x7 p _)

/-- The stored new hidden block at (p, q): lane q of the cell on row p of the loaded blocks. -/
theorem hnew_apply (x0 : FVec Ideal S1024x256 .f32) (x1 : FVec Ideal S1024x64 .f32) (x2 : FVec Ideal S1024x512 .f32)
    (x3 : FVec Ideal S256x1536 .bf16) (x4 : FVec Ideal S64x1536 .bf16) (x5 : FVec Ideal S512x1536 .bf16)
    (x6 x7 : FVec Ideal S1x1536 .f32) (p : Fin 1024) (q : Fin 512) :
    k0_pay7 (k0_pay1 x2) (k0_pay4 x0 x1 x2 x3 x4 x6 x5 x7) (k0_pay5 x0 x1 x2 x3 x4 x6 x5 x7) (k0_pay6 (F := Ideal)) (ix2 p q)
      = Cert.Cell.hnew (fun k => x0 (ix2 p k)) (fun k => x1 (ix2 p k)) (fun k => x2 (ix2 p k))
          (fun k j => x3 (ix2 k j)) (fun k j => x4 (ix2 k j)) (fun k j => x5 (ix2 k j))
          (fun j => x6 (ix2 (0 : Fin 1) j)) (fun j => x7 (ix2 (0 : Fin 1) j)) q := by
  unfold k0_pay7 Cert.Cell.hnew
  have hz := pay4_apply x0 x1 x2 x3 x4 x5 x6 x7 p q
  have hc := pay5_apply x0 x1 x2 x3 x4 x5 x6 x7 p q
  have hh : k0_pay1 (F := Ideal) x2 (ix2 p q) = x2 (ix2 p q) := by
    unfold k0_pay1
    rw [shapeCast_self]
  refine congrArg₂ (· + ·) (congrArg₂ (· * ·) (congrArg₂ (· - ·) rfl hz) hc) (congrArg₂ (· * ·) hz hh)

/-- One rectified affine layer of the block, read at (p, j): the product of row p with the weights into the zero
    accumulator, plus the bias row laid down the rows, against the zero splat under max. -/
theorem layer_apply {n m : ℕ} (d : DotDims ⟨2, ![1024, n]⟩ ⟨2, ![n, m]⟩ ⟨2, ![1024, m]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![1024, n]⟩ .bf16) (W : FVec Ideal ⟨2, ![n, m]⟩ .bf16) (b : FVec Ideal ⟨2, ![1, m]⟩ .f32)
    (hW : (⟨2, ![n, m]⟩ : Shape).ShapeCasts ⟨2, ![n, m]⟩) (hb : (⟨2, ![1, m]⟩ : Shape).ShapeCasts ⟨2, ![1, m]⟩)
    (hbr : (⟨2, ![1, m]⟩ : Shape).Broadcasts ⟨2, ![1024, m]⟩) (p : Fin 1024) (j : Fin m) :
    maximumf (addf (matmul d none x (shapeCast ⟨2, ![n, m]⟩ W hW) (constant ⟨2, ![1024, m]⟩ .f32 0x00000000#32))
        (broadcastTo ⟨2, ![1024, m]⟩ (shapeCast ⟨2, ![1, m]⟩ b hb) hbr))
      (broadcast ⟨2, ![1024, m]⟩ (Scalar.ofBits (F := Ideal) .f32 0x00000000#32)) (ix2 p j)
    = Cert.Cell.layer (fun k => x (ix2 p k)) (fun k j => W (ix2 k j)) (fun j => b (ix2 (0 : Fin 1) j)) j := by
  unfold Cert.Cell.layer
  refine congrArg₂ max (congrArg₂ (· + ·) ?_ ?_) rfl
  · refine (Cert.LibDot.matmul_zero_plain_apply d hlc hrc hln hrn hlb hrb none _ _ (ix2 p j)).trans ?_
    refine Finset.sum_congr rfl fun k _ => ?_
    rw [shapeCast_self]
    rfl
  · refine (broadcastTo_1b_ab_apply _ _ p j).trans ?_
    rw [shapeCast_self]

/-- The stored value block at (p, 0): the head on the row's new hidden vector. -/
theorem value_apply (x0 : FVec Ideal S1024x256 .f32) (x1 : FVec Ideal S1024x64 .f32) (x2 : FVec Ideal S1024x512 .f32)
    (x3 : FVec Ideal S256x1536 .bf16) (x4 : FVec Ideal S64x1536 .bf16) (x5 : FVec Ideal S512x1536 .bf16)
    (x6 x7 : FVec Ideal S1x1536 .f32) (x8 : FVec Ideal S512x1024 .bf16) (x9 : FVec Ideal S1x1024 .f32)
    (x10 : FVec Ideal S1024x1024 .bf16) (x11 : FVec Ideal S1x1024 .f32) (x12 : FVec Ideal S1x1024 .bf16)
    (x13 : FVec Ideal S1x1 .f32) (p : Fin 1024) :
    k0_pay8 (k0_pay1 x2) (k0_pay4 x0 x1 x2 x3 x4 x6 x5 x7) (k0_pay5 x0 x1 x2 x3 x4 x6 x5 x7) (k0_pay6 (F := Ideal))
        x8 x9 x10 x11 x12 x13 (ix2 p (0 : Fin 1))
      = Cert.Cell.head (Cert.Cell.hnew (fun k => x0 (ix2 p k)) (fun k => x1 (ix2 p k)) (fun k => x2 (ix2 p k))
          (fun k j => x3 (ix2 k j)) (fun k j => x4 (ix2 k j)) (fun k j => x5 (ix2 k j))
          (fun j => x6 (ix2 (0 : Fin 1) j)) (fun j => x7 (ix2 (0 : Fin 1) j)))
          (fun k j => x8 (ix2 k j)) (fun j => x9 (ix2 (0 : Fin 1) j)) (fun k j => x10 (ix2 k j))
          (fun j => x11 (ix2 (0 : Fin 1) j)) (fun k => x12 (ix2 (0 : Fin 1) k)) (x13 (ix2 (0 : Fin 1) (0 : Fin 1))) := by
  unfold k0_pay8 Cert.Cell.head Cert.Cell.value
  refine congrArg₂ (· + ·) ?_ ?_
  · refine (Cert.LibColumn.shapeCast_a_a1_apply _ _ p 0).trans ?_
    refine (Cert.LibRows.rowSum_apply _ _ _ _ _ p).trans ?_
    refine Finset.sum_congr rfl fun k _ => ?_
    refine congrArg₂ (· * ·) ?_ ?_
    · refine (layer_apply _ rfl rfl rfl rfl rfl rfl _ x10 x11 _ _ _ p k).trans ?_
      refine congrArg (fun f => Cert.Cell.layer f _ _ k) (funext fun i => ?_)
      refine (layer_apply _ rfl rfl rfl rfl rfl rfl _ x8 x9 _ _ _ p i).trans ?_
      refine congrArg (fun f => Cert.Cell.layer f _ _ i) (funext fun l => ?_)
      exact hnew_apply x0 x1 x2 x3 x4 x5 x6 x7 p l
    · refine (broadcastTo_1b_ab_apply _ _ p k).trans ?_
      refine (extf_apply (ψ := .f32) (shapeCast S1x1024 x12 shapeCasts_S1x1024_S1x1024) bitsLt_bf16_f32 (ix2 (0 : Fin 1) k)).trans ?_
      rw [shapeCast_self]
  · refine (broadcastTo_1b_ab_apply _ _ p 0).trans ?_
    rw [shapeCast_self]

end Cert.KernelIdeal.Body

end
-- ==== Proof.Blocks.lean ====
/-
  From what each grid point writes back to the two result arrays.

  Point t writes back a 1024 × 512 block of the new hidden array and a 1024 × 1 block of the value column, at block
  row t. Entry (p, q) of the first is lane q of the cell on row p of the point's row blocks, which are rows
  1024·t + p of the state, the action and the hidden arguments, with the weights read transposed: so the block is
  block t of ONE whole-array function of the arguments, and likewise the value block. The 64 points' blocks tile the
  65536 rows (row r lies in the block of point r / 1024), so after the run each result array IS that function.
-/
import proofs.«112870_j57406532878787_2_alg».proof.Proof.Entry
import proofs.«112870_j57406532878787_2_alg».proof.Proof.Body
import proofs.«112870_j57406532878787_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Entry

variable (m : (ℓ : Loc nD τ sig) → Buf (Elt Ideal) ℓ)

theorem hz : (![0, 0] : Fin 2 → Nat) = fun _ => 0 := funext fun a => by fin_cases a <;> rfl

/-- The new hidden array of core c's arguments. -/
abbrev hnewOf (c : Dev nD) : FVec Ideal ⟨2, ![65536, 512]⟩ .f32 := Cert.Cell.hnewArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- The value column of core c's arguments. -/
abbrev valueOf (c : Dev nD) : FVec Ideal ⟨2, ![65536, 1]⟩ .f32 := Cert.Cell.valueArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-! ## One row of a point's blocks is one row of the arguments -/

/-- The cell on row p of point t's blocks is the cell on row 1024·t + p of the arguments. -/
theorem hrow_eq (c : Dev nD) (t : Fin cfg0.N) (p : Fin 1024) :
    Cert.Cell.hnew (fun k => (iblk m c 0 t : Vec Ideal S1024x256 .f32) (ix2 p k)) (fun k => (iblk m c 1 t : Vec Ideal S1024x64 .f32) (ix2 p k)) (fun k => (iblk m c 2 t : Vec Ideal S1024x512 .f32) (ix2 p k))
      (fun k j => (iblk m c 3 t : Vec Ideal S256x1536 .bf16) (ix2 k j)) (fun k j => (iblk m c 4 t : Vec Ideal S64x1536 .bf16) (ix2 k j)) (fun k j => (iblk m c 5 t : Vec Ideal S512x1536 .bf16) (ix2 k j))
      (fun j => (iblk m c 6 t : Vec Ideal S1x1536 .f32) (ix2 (0 : Fin 1) j)) (fun j => (iblk m c 7 t : Vec Ideal S1x1536 .f32) (ix2 (0 : Fin 1) j))
      = Cert.Cell.hnewRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (rowOf t p) := by
  unfold Cert.Cell.hnewRow
  simp only [blk0 m c t, blk1 m c t, blk2 m c t, blk3 m c t, blk4 m c t, blk5 m c t, blk6 m c t, blk7 m c t]

/-! ## What a point writes back -/

/-- Entry (p, q) of point t's block of the hidden result is entry (1024·t + p, q) of the array. -/
theorem emb15 (t : Fin cfg0.N) (p : Fin 1024) (q : Fin 512) :
    ((cfg0.win 15).blk t).view.emb (ix2 p q) = (ix2 (rowOf t p) q : S65536x512.Idx) := by
  have e0 : win0_15.index t (0 : Fin 2) = t.val := (idx_facts t).2.2.2.2.2.2.2.2.2.2.2.2.2.2.2.2.2.2.2.2.2.2.2.2.2.2.2.2.2.2.1
  have e1 : win0_15.index t (1 : Fin 2) = 0 := (idx_facts t).2.2.2.2.2.2.2.2.2.2.2.2.2.2.2.2.2.2.2.2.2.2.2.2.2.2.2.2.2.2.2
  funext a
  apply Fin.ext
  match a with
  | ⟨0, _⟩ => show win0_15.index t 0 * 1024 + 1 * p.val = t.val * 1024 + p.val; rw [e0]; omega
  | ⟨1, _⟩ => show win0_15.index t 1 * 512 + 1 * q.val = q.val; rw [e1]; omega

/-- Entry (p, 0) of point t's block of the value column is entry (1024·t + p, 0) of the array. -/
theorem emb14 (t : Fin cfg0.N) (p : Fin 1024) (u : Fin 1) :
    ((cfg0.win 14).blk t).view.emb (ix2 p u) = (ix2 (rowOf t p) u : S65536x1.Idx) := by
  have e0 : win0_14.index t (0 : Fin 2) = t.val := (idx_facts t).2.2.2.2.2.2.2.2.2.2.2.2.2.2.2.2.2.2.2.2.2.2.2.2.2.2.2.2.1
  have e1 : win0_14.index t (1 : Fin 2) = 0 := (idx_facts t).2.2.2.2.2.2.2.2.2.2.2.2.2.2.2.2.2.2.2.2.2.2.2.2.2.2.2.2.2.1
  funext a
  apply Fin.ext
  match a with
  | ⟨0, _⟩ => show win0_14.index t 0 * 1024 + 1 * p.val = t.val * 1024 + p.val; rw [e0]; omega
  | ⟨1, _⟩ => show win0_14.index t 1 * 1 + 1 * u.val = u.val; rw [e1]; omega

/-- What point t writes back to the hidden result is block t of the new hidden array of the arguments. -/
theorem flushed15_eq (c : Dev nD) (t : Fin cfg0.N) :
    (dats m 0 c).flushed 15 t = ((cfg0.win 15).blk t).view.read (Elt Ideal) (hnewOf m c) := by
  show (cfg0.win 15).cut (grid0.coords t) ((dats m 0 c).after 15 t) = _
  rw [after0_15]
  unfold out0_15
  rw [View.canon_unit_zero hz]
  simp only [View.ld_unit_zero (S := S1024x256) hz, View.ld_unit_zero (S := S1024x64) hz, View.ld_unit_zero (S := S1024x512) hz,
    View.ld_unit_zero (S := S256x1536) hz, View.ld_unit_zero (S := S64x1536) hz, View.ld_unit_zero (S := S512x1536) hz,
    View.ld_unit_zero (S := S1x1536) hz]
  funext y
  obtain ⟨p, q, rfl⟩ : ∃ (p : Fin 1024) (q : Fin 512), y = ix2 p q := ⟨y 0, y 1, eq_ix2 y⟩
  rw [View.read_apply, emb15 t p q]
  refine (Cert.KernelIdeal.Body.hnew_apply (iblk m c 0 t) (iblk m c 1 t) (iblk m c 2 t) (iblk m c 3 t) (iblk m c 4 t) (iblk m c 5 t) (iblk m c 6 t) (iblk m c 7 t) p q).trans ?_
  exact congrFun (hrow_eq m c t p) q

/-- What point t writes back to the value column is block t of the value column of the arguments. -/
theorem flushed14_eq (c : Dev nD) (t : Fin cfg0.N) :
    (dats m 0 c).flushed 14 t = ((cfg0.win 14).blk t).view.read (Elt Ideal) (valueOf m c) := by
  show (cfg0.win 14).cut (grid0.coords t) ((dats m 0 c).after 14 t) = _
  rw [after0_14]
  unfold out0_14
  rw [View.canon_unit_zero hz]
  simp only [View.ld_unit_zero (S := S1024x256) hz, View.ld_unit_zero (S := S1024x64) hz, View.ld_unit_zero (S := S1024x512) hz,
    View.ld_unit_zero (S := S256x1536) hz, View.ld_unit_zero (S := S64x1536) hz, View.ld_unit_zero (S := S512x1536) hz,
    View.ld_unit_zero (S := S1x1536) hz, View.ld_unit_zero (S := S512x1024) hz, View.ld_unit_zero (S := S1x1024) hz,
    View.ld_unit_zero (S := S1024x1024) hz, View.ld_unit_zero (S := S1x1) hz]
  funext y
  obtain ⟨p, u, rfl⟩ : ∃ (p : Fin 1024) (u : Fin 1), y = ix2 p u := ⟨y 0, y 1, eq_ix2 y⟩
  obtain rfl : u = 0 := Subsingleton.elim _ _
  rw [View.read_apply, emb14 t p 0]
  refine (Cert.KernelIdeal.Body.value_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p).trans ?_
  rw [hrow_eq m c t p]
  simp only [blk8 m c t, blk9 m c t, blk10 m c t, blk11 m c t, blk12 m c t, blk13 m c t]
  rfl

/-! ## The blocks tile the arrays -/

/-- An entry of the hidden result is in point t's block iff each coordinate is in the block's range. -/
theorem mem_blk15 (t : Fin cfg0.N) (i : S65536x512.Idx) :
    i ∈ ((cfg0.win 15).blk t).view.set ↔ ∀ a : Fin 2, win0_15.index t a * S1024x512.size a ≤ (i a).val ∧ (i a).val < win0_15.index t a * S1024x512.size a + S1024x512.size a := by
  show i ∈ ((View.whole main_v17_1).slice (win0_15.rect t)).set ↔ _
  rw [View.set_slice_whole, Rect.mem_set_unit]
  exact Iff.rfl

theorem mem_blk14 (t : Fin cfg0.N) (i : S65536x1.Idx) :
    i ∈ ((cfg0.win 14).blk t).view.set ↔ ∀ a : Fin 2, win0_14.index t a * S1024x1.size a ≤ (i a).val ∧ (i a).val < win0_14.index t a * S1024x1.size a + S1024x1.size a := by
  show i ∈ ((View.whole main_v17_0).slice (win0_14.rect t)).set ↔ _
  rw [View.set_slice_whole, Rect.mem_set_unit]
  exact Iff.rfl

/-- Row r of the hidden result lies in the block of point r / 1024. -/
theorem cover15 (i : S65536x512.Idx) : ∃ t : Fin cfg0.N, (cfg0.win 15).flush t = true ∧ i ∈ ((cfg0.win 15).blk t).view.set := by
  have hi0 : (i 0).val < 65536 := (i 0).isLt
  have hi1 : (i 1).val < 512 := (i 1).isLt
  have hN : (i 0).val / 1024 < cfg0.N := by rw [show cfg0.N = 64 from N_0]; omega
  refine ⟨⟨(i 0).val / 1024, hN⟩, flush0_15 _, ?_⟩
  rw [mem_blk15]
  have e0 : win0_15.index ⟨(i 0).val / 1024, hN⟩ (0 : Fin 2) = (i 0).val / 1024 := (idx_facts ⟨(i 0).val / 1024, hN⟩).2.2.2.2.2.2.2.2.2.2.2.2.2.2.2.2.2.2.2.2.2.2.2.2.2.2.2.2.2.2.1
  have e1 : win0_15.index ⟨(i 0).val / 1024, hN⟩ (1 : Fin 2) = 0 := (idx_facts ⟨(i 0).val / 1024, hN⟩).2.2.2.2.2.2.2.2.2.2.2.2.2.2.2.2.2.2.2.2.2.2.2.2.2.2.2.2.2.2.2
  intro a
  match a with
  | ⟨0, _⟩ => show win0_15.index ⟨(i 0).val / 1024, hN⟩ 0 * 1024 ≤ (i 0).val ∧ (i 0).val < win0_15.index ⟨(i 0).val / 1024, hN⟩ 0 * 1024 + 1024
              rw [e0]; omega
  | ⟨1, _⟩ => show win0_15.index ⟨(i 0).val / 1024, hN⟩ 1 * 512 ≤ (i 1).val ∧ (i 1).val < win0_15.index ⟨(i 0).val / 1024, hN⟩ 1 * 512 + 512
              rw [e1]; omega

/-- Row r of the value column lies in the block of point r / 1024. -/
theorem cover14 (i : S65536x1.Idx) : ∃ t : Fin cfg0.N, (cfg0.win 14).flush t = true ∧ i ∈ ((cfg0.win 14).blk t).view.set := by
  have hi0 : (i 0).val < 65536 := (i 0).isLt
  have hi1 : (i 1).val < 1 := (i 1).isLt
  have hN : (i 0).val / 1024 < cfg0.N := by rw [show cfg0.N = 64 from N_0]; omega
  refine ⟨⟨(i 0).val / 1024, hN⟩, flush0_14 _, ?_⟩
  rw [mem_blk14]
  have e0 : win0_14.index ⟨(i 0).val / 1024, hN⟩ (0 : Fin 2) = (i 0).val / 1024 := (idx_facts ⟨(i 0).val / 1024, hN⟩).2.2.2.2.2.2.2.2.2.2.2.2.2.2.2.2.2.2.2.2.2.2.2.2.2.2.2.2.1
  have e1 : win0_14.index ⟨(i 0).val / 1024, hN⟩ (1 : Fin 2) = 0 := (idx_facts ⟨(i 0).val / 1024, hN⟩).2.2.2.2.2.2.2.2.2.2.2.2.2.2.2.2.2.2.2.2.2.2.2.2.2.2.2.2.2.1
  intro a
  match a with
  | ⟨0, _⟩ => show win0_14.index ⟨(i 0).val / 1024, hN⟩ 0 * 1024 ≤ (i 0).val ∧ (i 0).val < win0_14.index ⟨(i 0).val / 1024, hN⟩ 0 * 1024 + 1024
              rw [e0]; omega
  | ⟨1, _⟩ => show win0_14.index ⟨(i 0).val / 1024, hN⟩ 1 * 1 ≤ (i 1).val ∧ (i 1).val < win0_14.index ⟨(i 0).val / 1024, hN⟩ 1 * 1 + 1
              rw [e1]; omega

/-! ## The arrays after the run -/

/-- The hidden result ends holding the new hidden array of the arguments. -/
theorem final15 (c : Dev nD) : (dats m 0 c).arrAt 15 cfg0.N = hnewOf m c :=
  (dats m 0 c).arrAt_eq_of_cover 15 (hnewOf m c) (fun t _ => flushed15_eq m c t) cover15

/-- The value result ends holding the value column of the arguments. -/
theorem final14 (c : Dev nD) : (dats m 0 c).arrAt 14 cfg0.N = valueOf m c :=
  (dats m 0 c).arrAt_eq_of_cover 14 (valueOf m c) (fun t _ => flushed14_eq m c t) cover14

/-- After the region the host puts the leading unit axis back on the hidden result. -/
theorem tail18 (c : Dev nD) :
    Pipeline.afterTail₀ cfgs (dats m) 0 (V0 m) [hostOps1] c main_v18
      = broadcastInDim S1x65536x512 ![1, 2] bcast_S65536x512_S1x65536x512_1_2 (hnewOf m c) := by
  unfold Pipeline.afterTail₀
  show StableHlo.after hostOps1 _ (Proc.devRef .tc main_v18) = _
  after_results
  exact congrArg (broadcastInDim S1x65536x512 ![1, 2] bcast_S65536x512_S1x65536x512_1_2)
    ((Pipeline.withArrays_arr spec0 launch0.win.arr_inj c (V0 m c) (fun w => (dats m 0 c).arrAt w cfg0.N) 15).trans (final15 m c))

/-! ## The run, read -/

/-- Every weakly fair execution of the program ends with the value result at the value column of the arguments, the
    hidden result at their new hidden array under its leading unit axis, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v17_0) = valueOf m c
      ∧ r.2.mem ((c.tc : Thread nD τ).loc main_v18) = broadcastInDim S1x65536x512 ![1, 2] bcast_S65536x512_S1x65536x512_1_2 (hnewOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).1 14).trans (final14 m c),
      ((h c).2 main_v18 (Pipeline.mem_restRefs_of main_v18 (by decide) (by decide))).trans (tail18 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.KernelIdeal.Blocks

end
-- ==== Proof.LibCols.lean ====
/-
  Two matrices set side by side, read at an index.

  For an a × b₁ matrix x₁ and an a × b₂ matrix x₂ concatenated along the column axis into an a × b matrix, the entry
  at (r, j) with j < b₁ is x₁(r, j), and the entry at (r, b₁ + q) is x₂(r, q) — generic in the four extents.
-/
import Idealize.ShloMosaic.Lib.Pipeline.Value
import Idealize.ShloMosaic.Lib.ValueIdx

namespace Cert.LibCols

open Idealize.ShloMosaic Idealize.ShloMosaic.ValueIdx

variable {α : Type} {a b₁ b₂ b : Nat}

/-- A column in the first piece's range reads the first piece at the same coordinates. -/
theorem concat_cols_left (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (r : Fin a) (j : Fin b) (q : Fin b₁)
    (hq : q.val = j.val) :
    concatenate ⟨2, ![a, b]⟩ 1 [⟨⟨2, ![a, b₁]⟩, x₁⟩, ⟨⟨2, ![a, b₂]⟩, x₂⟩] h (ix2 r j) = x₁ (ix2 r q) :=
  concatenate_pair_apply_left 1 x₁ x₂ h (ix2 r j) rfl (ix2 r q) fun c => match c with
    | ⟨0, _⟩ => rfl
    | ⟨1, _⟩ => hq

/-- A column past the first piece's range reads the second piece, the first piece's width less. -/
theorem concat_cols_right (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (r : Fin a) (j : Fin b) (q : Fin b₂)
    (hq : q.val + b₁ = j.val) :
    concatenate ⟨2, ![a, b]⟩ 1 [⟨⟨2, ![a, b₁]⟩, x₁⟩, ⟨⟨2, ![a, b₂]⟩, x₂⟩] h (ix2 r j) = x₂ (ix2 r q) :=
  concatenate_pair_apply_right 1 x₁ x₂ h (ix2 r j) rfl rfl (ix2 r q)
    (fun c hc => match c, hc with
      | ⟨0, _⟩, _ => rfl
      | ⟨1, _⟩, hc => absurd rfl hc)
    hq

end Cert.LibCols
-- ==== Proof.RefValue.lean ====
/-
  The reference program's two results as functions of its argument arrays, entry by entry.

  The reference concatenates the state and the action along the columns, multiplies by the transposed input weights,
  and otherwise computes the cell and the head row by row with whole-array operations. Entry (i, q) of its new hidden
  array is lane q of the cell on row i of the arguments, and entry (i, 0) of its value column is the head on that
  row's new hidden vector. The product with the concatenated row is the sum of the state's and the action's products
  because a sum over the 320 joined columns splits into its first 256 and its last 64 terms; the logistic function is
  spelt out by the reference as 1 / (1 + e^(−x)), which is the function's definition on the extended reals.
-/
import proofs.«112870_j57406532878787_2_alg».proof.Proof.Gen.ReferenceIdeal.Read
import proofs.«112870_j57406532878787_2_alg».proof.Proof.Spec
import proofs.«112870_j57406532878787_2_alg».proof.Proof.LibCols
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The indices the stages read at, by coordinates -/

/-- The joined row's entry the first product reads: row i, column k. -/
theorem lidx_v3 (i : Fin 65536) (c : Fin 1536) (k : Fin 320) : lidx_main_v3 (ix2 i c) k = ix2 i k := by
  funext a; match a with | ⟨0, _⟩ => rfl | ⟨1, _⟩ => rfl

/-- The transposed input weights' entry the first product reads: row k, column c. -/
theorem ridx_v3 (i : Fin 65536) (c : Fin 1536) (k : Fin 320) : ridx_main_v3 (ix2 i c) k = ix2 k c := by
  funext a; match a with | ⟨0, _⟩ => rfl | ⟨1, _⟩ => rfl

/-- The transpose of the input weights reads the stored entry with its coordinates exchanged. -/
theorem idx_v2 (k : Fin 320) (c : Fin 1536) : idx_main_v2 (ix2 k c) = ix2 c k := by
  funext a; match a with | ⟨0, _⟩ => rfl | ⟨1, _⟩ => rfl

theorem lidx_v8 (i : Fin 65536) (c : Fin 1536) (k : Fin 512) : lidx_main_v8 (ix2 i c) k = ix2 i k := by
  funext a; match a with | ⟨0, _⟩ => rfl | ⟨1, _⟩ => rfl

theorem ridx_v8 (i : Fin 65536) (c : Fin 1536) (k : Fin 512) : ridx_main_v8 (ix2 i c) k = ix2 k c := by
  funext a; match a with | ⟨0, _⟩ => rfl | ⟨1, _⟩ => rfl

theorem idx_v7 (k : Fin 512) (c : Fin 1536) : idx_main_v7 (ix2 k c) = ix2 c k := by
  funext a; match a with | ⟨0, _⟩ => rfl | ⟨1, _⟩ => rfl

/-- Dropping the hidden array's leading unit axis keeps the row and the lane. -/
theorem idx_v1 (i : Fin 65536) (k : Fin 512) : idx_main_v1 (ix2 i k) = ix3 (0 : Fin 1) i k := by
  funext a
  match a with
  | ⟨0, _⟩ => rfl
  | ⟨1, _⟩ =>
    refine Fin.ext ?_
    have hi := i.isLt; have hk := k.isLt
    show (i.val * 512 + k.val) / 512 % 65536 = i.val
    omega
  | ⟨2, _⟩ =>
    refine Fin.ext ?_
    have hi := i.isLt; have hk := k.isLt
    show (i.val * 512 + k.val) % 512 = k.val
    omega

/-- A bias row broadcast over the rows reads the bias at the column. -/
theorem idx_v5 (i : Fin 65536) (c : Fin 1536) : idx_main_v4 (idx_main_v5 (ix2 i c)) = ix1 c := by
  funext a; match a with | ⟨0, _⟩ => rfl

theorem idx_v10 (i : Fin 65536) (c : Fin 1536) : idx_main_v9 (idx_main_v10 (ix2 i c)) = ix1 c := by
  funext a; match a with | ⟨0, _⟩ => rfl

/-- The three column groups of the gate pre-activations: lanes of the reset, update and candidate groups. -/
theorem idx_v12 (i : Fin 65536) (q : Fin 512) : idx_main_v12 (ix2 i q) = ix2 i (Cert.Cell.laneR q) := by
  funext a; match a with | ⟨0, _⟩ => rfl | ⟨1, _⟩ => rfl
theorem idx_v13 (i : Fin 65536) (q : Fin 512) : idx_main_v13 (ix2 i q) = ix2 i (Cert.Cell.laneZ q) := by
  funext a; match a with | ⟨0, _⟩ => rfl | ⟨1, _⟩ => rfl
theorem idx_v14 (i : Fin 65536) (q : Fin 512) : idx_main_v14 (ix2 i q) = ix2 i (Cert.Cell.laneN q) := by
  funext a; match a with | ⟨0, _⟩ => rfl | ⟨1, _⟩ => rfl
theorem idx_v15 (i : Fin 65536) (q : Fin 512) : idx_main_v15 (ix2 i q) = ix2 i (Cert.Cell.laneR q) := by
  funext a; match a with | ⟨0, _⟩ => rfl | ⟨1, _⟩ => rfl
theorem idx_v16 (i : Fin 65536) (q : Fin 512) : idx_main_v16 (ix2 i q) = ix2 i (Cert.Cell.laneZ q) := by
  funext a; match a with | ⟨0, _⟩ => rfl | ⟨1, _⟩ => rfl
theorem idx_v17 (i : Fin 65536) (q : Fin 512) : idx_main_v17 (ix2 i q) = ix2 i (Cert.Cell.laneN q) := by
  funext a; match a with | ⟨0, _⟩ => rfl | ⟨1, _⟩ => rfl

/-! ## The cell -/

section Cell

variable (x0 : FVec Ideal S65536x256 .f32) (x1 : FVec Ideal S65536x64 .f32) (x2 : FVec Ideal S1x65536x512 .f32)
    (x3 : FVec Ideal S1536x320 .f32) (x4 : FVec Ideal S1536x512 .f32) (x5 x6 : FVec Ideal S1536 .f32)

/-- A column among the first 256 of the joined row is the state's. -/
theorem v0_left (i : Fin 65536) (k : Fin 256) :
    val_main_v0 (F := Ideal) x0 x1 (ix2 i (⟨k.val, by have := k.isLt; omega⟩ : Fin 320)) = x0 (ix2 i k) := by
  unfold val_main_v0
  exact Cert.LibCols.concat_cols_left x0 x1 _ i _ k rfl

/-- A column among the last 64 of the joined row is the action's. -/
theorem v0_right (i : Fin 65536) (k : Fin 64) :
    val_main_v0 (F := Ideal) x0 x1 (ix2 i (⟨256 + k.val, by have := k.isLt; omega⟩ : Fin 320)) = x1 (ix2 i k) := by
  unfold val_main_v0
  exact Cert.LibCols.concat_cols_right x0 x1 _ i _ k (by show k.val + 256 = 256 + k.val; omega)

/-- The product with the joined row is the state's product plus the action's. -/
theorem v3_at (i : Fin 65536) (c : Fin 1536) :
    val_main_v3 (F := Ideal) x0 x1 x3 (ix2 i c)
      = ∑ k : Fin 256, x0 (ix2 i k) * Cert.Cell.wState x3 k c + ∑ k : Fin 64, x1 (ix2 i k) * Cert.Cell.wAction x3 k c := by
  rw [val_main_v3_apply, Cert.Cell.sum_320]
  congr 1
  · refine Finset.sum_congr rfl fun k _ => ?_
    rw [lidx_v3, ridx_v3, v0_left, val_main_v2_apply, idx_v2]
    rfl
  · refine Finset.sum_congr rfl fun k _ => ?_
    rw [lidx_v3, ridx_v3, v0_right, val_main_v2_apply, idx_v2]
    rfl

theorem v5_at (i : Fin 65536) (c : Fin 1536) : val_main_v5 (F := Ideal) x5 (ix2 i c) = x5 (ix1 c) := by
  rw [val_main_v5_apply, val_main_v4_apply, idx_v5]

/-- The input-side pre-activations. -/
theorem v6_at (i : Fin 65536) (c : Fin 1536) :
    val_main_v6 (F := Ideal) x0 x1 x3 x5 (ix2 i c)
      = Cert.Cell.gi (Cert.Cell.row x0 i) (Cert.Cell.row x1 i) (Cert.Cell.wState x3) (Cert.Cell.wAction x3) (Cert.Cell.vec x5) c := by
  rw [val_main_v6_apply, v3_at, v5_at]
  rfl

theorem v1_at (i : Fin 65536) (k : Fin 512) : val_main_v1 (F := Ideal) x2 (ix2 i k) = x2 (ix3 (0 : Fin 1) i k) := by
  rw [val_main_v1_apply, idx_v1]

theorem v8_at (i : Fin 65536) (c : Fin 1536) :
    val_main_v8 (F := Ideal) x2 x4 (ix2 i c) = ∑ k : Fin 512, x2 (ix3 (0 : Fin 1) i k) * x4 (ix2 c k) := by
  rw [val_main_v8_apply]
  refine Finset.sum_congr rfl fun k _ => ?_
  rw [lidx_v8, ridx_v8, v1_at, val_main_v7_apply, idx_v7]

theorem v10_at (i : Fin 65536) (c : Fin 1536) : val_main_v10 (F := Ideal) x6 (ix2 i c) = x6 (ix1 c) := by
  rw [val_main_v10_apply, val_main_v9_apply, idx_v10]

/-- The hidden-side pre-activations. -/
theorem v11_at (i : Fin 65536) (c : Fin 1536) :
    val_main_v11 (F := Ideal) x2 x4 x6 (ix2 i c)
      = Cert.Cell.gh (fun k => x2 (ix3 (0 : Fin 1) i k)) (Cert.Cell.matT x4) (Cert.Cell.vec x6) c := by
  rw [val_main_v11_apply, v8_at, v10_at]
  rfl

end Cell

/-! ## The gates, the candidate and the new hidden entry -/

/-- The reference spells the logistic function as 1 / (1 + e^(−x)), and the float word of 1.0 denotes 1: that is the
    function's definition on the extended reals. -/
theorem logistic_spelt (x : Ideal .f32) :
    FloatOps.hostDivf (F := Ideal) (Cert.Cell.one : Ideal .f32)
        (FloatOps.addf (Cert.Cell.one : Ideal .f32) (FloatOps.hostUnary .exp (FloatOps.hostNegf x)))
      = Ideal.logistic x := by
  show Ideal.div (Ideal.ofBits .f32 0x3F800000#32) (Ideal.ofBits .f32 0x3F800000#32 + Ideal.exp (-x)) = Ideal.logistic x
  rw [Ideal.ofBits_one_f32]
  rfl

/-- The splats of the word of 1.0 read that word's value everywhere. -/
theorem v21_at (j : S65536x512.Idx) : val_main_v21 (F := Ideal) j = Cert.Cell.one := by
  rw [val_main_v21_apply, val_main_cst_apply]; rfl
theorem v23_at (j : S65536x512.Idx) : val_main_v23 (F := Ideal) j = Cert.Cell.one := by
  rw [val_main_v23_apply, val_main_cst_0_apply]; rfl
theorem v28_at (j : S65536x512.Idx) : val_main_v28 (F := Ideal) j = Cert.Cell.one := by
  rw [val_main_v28_apply, val_main_cst_1_apply]; rfl
theorem v30_at (j : S65536x512.Idx) : val_main_v30 (F := Ideal) j = Cert.Cell.one := by
  rw [val_main_v30_apply, val_main_cst_2_apply]; rfl
theorem v35_at (j : S65536x512.Idx) : val_main_v35 (F := Ideal) j = Cert.Cell.one := by
  rw [val_main_v35_apply, val_main_cst_3_apply]; rfl

section Gates

variable (x0 : FVec Ideal S65536x256 .f32) (x1 : FVec Ideal S65536x64 .f32) (x2 : FVec Ideal S1x65536x512 .f32)
    (x3 : FVec Ideal S1536x320 .f32) (x4 : FVec Ideal S1536x512 .f32) (x5 x6 : FVec Ideal S1536 .f32)

/-- The reset gate. -/
theorem v24_at (i : Fin 65536) (q : Fin 512) :
    val_main_v24 (F := Ideal) x0 x1 x2 x3 x4 x5 x6 (ix2 i q)
      = Cert.Cell.gateR (Cert.Cell.row x0 i) (Cert.Cell.row x1 i) (fun k => x2 (ix3 (0 : Fin 1) i k)) (Cert.Cell.wState x3)
          (Cert.Cell.wAction x3) (Cert.Cell.matT x4) (Cert.Cell.vec x5) (Cert.Cell.vec x6) q := by
  rw [val_main_v24_apply, val_main_v22_apply, val_main_v20_apply, val_main_v19_apply, val_main_v18_apply,
    val_main_v12_apply, val_main_v15_apply, idx_v12, idx_v15, v6_at, v11_at, v23_at, v21_at]
  exact logistic_spelt _

/-- The update gate. -/
theorem v31_at (i : Fin 65536) (q : Fin 512) :
    val_main_v31 (F := Ideal) x0 x1 x2 x3 x4 x5 x6 (ix2 i q)
      = Cert.Cell.gateZ (Cert.Cell.row x0 i) (Cert.Cell.row x1 i) (fun k => x2 (ix3 (0 : Fin 1) i k)) (Cert.Cell.wState x3)
          (Cert.Cell.wAction x3) (Cert.Cell.matT x4) (Cert.Cell.vec x5) (Cert.Cell.vec x6) q := by
  rw [val_main_v31_apply, val_main_v29_apply, val_main_v27_apply, val_main_v26_apply, val_main_v25_apply,
    val_main_v13_apply, val_main_v16_apply, idx_v13, idx_v16, v6_at, v11_at, v30_at, v28_at]
  exact logistic_spelt _

/-- The candidate. -/
theorem v34_at (i : Fin 65536) (q : Fin 512) :
    val_main_v34 (F := Ideal) x0 x1 x2 x3 x4 x5 x6 (ix2 i q)
      = Cert.Cell.cand (Cert.Cell.row x0 i) (Cert.Cell.row x1 i) (fun k => x2 (ix3 (0 : Fin 1) i k)) (Cert.Cell.wState x3)
          (Cert.Cell.wAction x3) (Cert.Cell.matT x4) (Cert.Cell.vec x5) (Cert.Cell.vec x6) q := by
  rw [val_main_v34_apply, val_main_v33_apply, val_main_v32_apply, val_main_v14_apply, val_main_v17_apply,
    idx_v14, idx_v17, v6_at, v11_at, v24_at]
  rfl

/-- Entry (i, q) of the reference's new hidden array is lane q of the cell on row i. -/
theorem v39_at (i : Fin 65536) (q : Fin 512) :
    val_main_v39 (F := Ideal) x0 x1 x2 x3 x4 x5 x6 (ix2 i q) = Cert.Cell.hnewRow x0 x1 x2 x3 x4 x5 x6 i q := by
  rw [val_main_v39_apply, val_main_v37_apply, val_main_v38_apply, val_main_v36_apply, v35_at, v31_at, v34_at, v1_at]
  rfl

end Gates

/-- The reference's new hidden array (before its leading unit axis is put back) is the cell, row by row. -/
theorem hnew_eq (x0 : FVec Ideal S65536x256 .f32) (x1 : FVec Ideal S65536x64 .f32) (x2 : FVec Ideal S1x65536x512 .f32)
    (x3 : FVec Ideal S1536x320 .f32) (x4 : FVec Ideal S1536x512 .f32) (x5 x6 : FVec Ideal S1536 .f32) :
    val_main_v39 (F := Ideal) x0 x1 x2 x3 x4 x5 x6 = Cert.Cell.hnewArr x0 x1 x2 x3 x4 x5 x6 := by
  funext j
  obtain ⟨i, q, rfl⟩ : ∃ i q, j = ix2 i q := ⟨j 0, j 1, eq_ix2 j⟩
  exact v39_at x0 x1 x2 x3 x4 x5 x6 i q

/-! ## The head -/

theorem lidx_v41 (i : Fin 65536) (c : Fin 1024) (k : Fin 512) : lidx_main_v41 (ix2 i c) k = ix2 i k := by
  funext a; match a with | ⟨0, _⟩ => rfl | ⟨1, _⟩ => rfl
theorem ridx_v41 (i : Fin 65536) (c : Fin 1024) (k : Fin 512) : ridx_main_v41 (ix2 i c) k = ix2 k c := by
  funext a; match a with | ⟨0, _⟩ => rfl | ⟨1, _⟩ => rfl
theorem idx_v40 (k : Fin 512) (c : Fin 1024) : idx_main_v40 (ix2 k c) = ix2 c k := by
  funext a; match a with | ⟨0, _⟩ => rfl | ⟨1, _⟩ => rfl
theorem idx_v43 (i : Fin 65536) (c : Fin 1024) : idx_main_v42 (idx_main_v43 (ix2 i c)) = ix1 c := by
  funext a; match a with | ⟨0, _⟩ => rfl
theorem lidx_v47 (i : Fin 65536) (c k : Fin 1024) : lidx_main_v47 (ix2 i c) k = ix2 i k := by
  funext a; match a with | ⟨0, _⟩ => rfl | ⟨1, _⟩ => rfl
theorem ridx_v47 (i : Fin 65536) (c k : Fin 1024) : ridx_main_v47 (ix2 i c) k = ix2 k c := by
  funext a; match a with | ⟨0, _⟩ => rfl | ⟨1, _⟩ => rfl
theorem idx_v46 (k c : Fin 1024) : idx_main_v46 (ix2 k c) = ix2 c k := by
  funext a; match a with | ⟨0, _⟩ => rfl | ⟨1, _⟩ => rfl
theorem idx_v49 (i : Fin 65536) (c : Fin 1024) : idx_main_v48 (idx_main_v49 (ix2 i c)) = ix1 c := by
  funext a; match a with | ⟨0, _⟩ => rfl
theorem lidx_v53 (i : Fin 65536) (z : Fin 1) (k : Fin 1024) : lidx_main_v53 (ix2 i z) k = ix2 i k := by
  funext a; match a with | ⟨0, _⟩ => rfl | ⟨1, _⟩ => rfl
theorem ridx_v53 (i : Fin 65536) (z : Fin 1) (k : Fin 1024) : ridx_main_v53 (ix2 i z) k = ix2 k z := by
  funext a; match a with | ⟨0, _⟩ => rfl | ⟨1, _⟩ => rfl
theorem idx_v52 (k : Fin 1024) (z : Fin 1) : idx_main_v52 (ix2 k z) = ix2 z k := by
  funext a; match a with | ⟨0, _⟩ => rfl | ⟨1, _⟩ => rfl
theorem idx_v55 (i : Fin 65536) (z : Fin 1) : idx_main_v54 (idx_main_v55 (ix2 i z)) = ix1 (0 : Fin 1) := by
  funext a; match a with | ⟨0, _⟩ => rfl

/-- The rectifier's splats of the word of 0.0 read that word's value everywhere. -/
theorem call0_at (j : S65536x1024.Idx) : val_main_call0_v0 (F := Ideal) j = Cert.Cell.zero := by
  rw [val_main_call0_v0_apply, val_main_call0_cst_apply]; rfl
theorem call1_at (j : S65536x1024.Idx) : val_main_call1_v0 (F := Ideal) j = Cert.Cell.zero := by
  rw [val_main_call1_v0_apply, val_main_call1_cst_apply]; rfl

section Head

variable (x0 : FVec Ideal S65536x256 .f32) (x1 : FVec Ideal S65536x64 .f32) (x2 : FVec Ideal S1x65536x512 .f32)
    (x3 : FVec Ideal S1536x320 .f32) (x4 : FVec Ideal S1536x512 .f32) (x5 x6 : FVec Ideal S1536 .f32)
    (x7 : FVec Ideal S1024x512 .f32) (x8 : FVec Ideal S1024 .f32) (x9 : FVec Ideal S1024x1024 .f32)
    (x10 : FVec Ideal S1024 .f32) (x11 : FVec Ideal S1x1024 .f32) (x12 : FVec Ideal S1 .f32)

/-- The first rectified layer on row i's new hidden vector. -/
theorem v45_at (i : Fin 65536) (c : Fin 1024) :
    val_main_v45 (F := Ideal) x0 x1 x2 x3 x4 x5 x6 x7 x8 (ix2 i c)
      = Cert.Cell.layer (Cert.Cell.hnewRow x0 x1 x2 x3 x4 x5 x6 i) (Cert.Cell.matT x7) (Cert.Cell.vec x8) c := by
  have h41 : val_main_v41 (F := Ideal) x0 x1 x2 x3 x4 x5 x6 x7 (ix2 i c)
      = ∑ k : Fin 512, Cert.Cell.hnewRow x0 x1 x2 x3 x4 x5 x6 i k * x7 (ix2 c k) := by
    rw [val_main_v41_apply]
    refine Finset.sum_congr rfl fun k _ => ?_
    rw [lidx_v41, ridx_v41, v39_at, val_main_v40_apply, idx_v40]
  rw [val_main_v45_apply, val_main_v44_apply, h41, val_main_v43_apply, val_main_v42_apply, idx_v43, call0_at]
  rfl

/-- The second rectified layer. -/
theorem v51_at (i : Fin 65536) (c : Fin 1024) :
    val_main_v51 (F := Ideal) x0 x1 x2 x3 x4 x5 x6 x7 x8 x9 x10 (ix2 i c)
      = Cert.Cell.layer (Cert.Cell.layer (Cert.Cell.hnewRow x0 x1 x2 x3 x4 x5 x6 i) (Cert.Cell.matT x7) (Cert.Cell.vec x8))
          (Cert.Cell.matT x9) (Cert.Cell.vec x10) c := by
  have h47 : val_main_v47 (F := Ideal) x0 x1 x2 x3 x4 x5 x6 x7 x8 x9 (ix2 i c)
      = ∑ k : Fin 1024, Cert.Cell.layer (Cert.Cell.hnewRow x0 x1 x2 x3 x4 x5 x6 i) (Cert.Cell.matT x7) (Cert.Cell.vec x8) k
          * x9 (ix2 c k) := by
    rw [val_main_v47_apply]
    refine Finset.sum_congr rfl fun k _ => ?_
    rw [lidx_v47, ridx_v47, v45_at, val_main_v46_apply, idx_v46]
  rw [val_main_v51_apply, val_main_v50_apply, h47, val_main_v49_apply, val_main_v48_apply, idx_v49, call1_at]
  rfl

/-- Entry (i, 0) of the reference's value column is the head on row i's new hidden vector. -/
theorem v56_at (i : Fin 65536) :
    val_main_v56 (F := Ideal) x0 x1 x2 x3 x4 x5 x6 x7 x8 x9 x10 x11 x12 (ix2 i (0 : Fin 1))
      = Cert.Cell.head (Cert.Cell.hnewRow x0 x1 x2 x3 x4 x5 x6 i) (Cert.Cell.matT x7) (Cert.Cell.vec x8) (Cert.Cell.matT x9)
          (Cert.Cell.vec x10) (Cert.Cell.row x11 0) (x12 (ix1 (0 : Fin 1))) := by
  have h53 : val_main_v53 (F := Ideal) x0 x1 x2 x3 x4 x5 x6 x7 x8 x9 x10 x11 (ix2 i (0 : Fin 1))
      = ∑ k : Fin 1024, Cert.Cell.layer (Cert.Cell.layer (Cert.Cell.hnewRow x0 x1 x2 x3 x4 x5 x6 i) (Cert.Cell.matT x7)
          (Cert.Cell.vec x8)) (Cert.Cell.matT x9) (Cert.Cell.vec x10) k * x11 (ix2 (0 : Fin 1) k) := by
    rw [val_main_v53_apply]
    refine Finset.sum_congr rfl fun k _ => ?_
    rw [lidx_v53, ridx_v53, v51_at, val_main_v52_apply, idx_v52]
  rw [val_main_v56_apply, h53, val_main_v55_apply, val_main_v54_apply, idx_v55]
  rfl

end Head

/-- The reference's value column is the head, row by row. -/
theorem value_eq (x0 : FVec Ideal S65536x256 .f32) (x1 : FVec Ideal S65536x64 .f32) (x2 : FVec Ideal S1x65536x512 .f32)
    (x3 : FVec Ideal S1536x320 .f32) (x4 : FVec Ideal S1536x512 .f32) (x5 x6 : FVec Ideal S1536 .f32)
    (x7 : FVec Ideal S1024x512 .f32) (x8 : FVec Ideal S1024 .f32) (x9 : FVec Ideal S1024x1024 .f32)
    (x10 : FVec Ideal S1024 .f32) (x11 : FVec Ideal S1x1024 .f32) (x12 : FVec Ideal S1 .f32) :
    val_main_v56 (F := Ideal) x0 x1 x2 x3 x4 x5 x6 x7 x8 x9 x10 x11 x12
      = Cert.Cell.valueArr x0 x1 x2 x3 x4 x5 x6 x7 x8 x9 x10 x11 x12 := by
  funext j
  obtain ⟨i, z, rfl⟩ : ∃ i z, j = ix2 i z := ⟨j 0, j 1, eq_ix2 j⟩
  obtain rfl : z = (0 : Fin 1) := Subsingleton.elim _ _
  exact v56_at x0 x1 x2 x3 x4 x5 x6 x7 x8 x9 x10 x11 x12 i

end Cert.ReferenceIdeal.RefValue

end
-- ==== Proof.lean ====
/-
  A batch of 65536 rows through one gated recurrent cell and a three-layer rectified head, computed two ways.

  The kernel walks the batch in 64 blocks of 1024 rows; for each block it multiplies the state rows and the action
  rows by their own parts of the transposed input weights and adds the two products, forms the gates and the new
  hidden rows, runs the two rectified layers, and takes the last layer as a lane sum against the one weight row. The
  reference joins each state row with its action row, multiplies the joined row by the whole transposed input
  weights, and otherwise computes the same quantities with whole-array operations, the last layer as a matrix
  product with a single column.

  On the extended reals both are, row by row, the cell and the head of Proof/Spec.lean. A change of float format is
  the identity; a matrix product into a zero accumulator, a host matrix product and a lane sum are plain sums of
  products; the logistic function the kernel applies is by definition the quotient 1 / (1 + e^(−x)) the reference
  spells out. The one law that joins the two sides is that a sum over the 320 joined columns is the sum over the
  first 256 plus the sum over the last 64, which holds in any commutative monoid: no finiteness of the inputs is
  used. The kernel's side is read off its frame run: what each grid point writes back is a block of one whole-array
  function of the arguments (Proof/Body.lean, Proof/Entry.lean), the 64 blocks tile each result, and the host's last
  operation puts the leading unit axis back on the hidden result (Proof/Blocks.lean). The reference's side is its
  run, read one stage at a time (Proof/RefValue.lean). The idealization rewrote nothing, so that claim is trivial.
-/
import proofs.«112870_j57406532878787_2_alg».proof.Defs
import proofs.«112870_j57406532878787_2_alg».proof.Proof.Gen.Kernel
import proofs.«112870_j57406532878787_2_alg».proof.Proof.Gen.Kernel.Skeleton
import proofs.«112870_j57406532878787_2_alg».proof.Proof.Gen.Kernel.Launch
import proofs.«112870_j57406532878787_2_alg».proof.Proof.Gen.Kernel.Points
import proofs.«112870_j57406532878787_2_alg».proof.Proof.Gen.Kernel.Frame
import proofs.«112870_j57406532878787_2_alg».proof.Proof.Gen.KernelIdeal
import proofs.«112870_j57406532878787_2_alg».proof.Proof.Gen.KernelIdeal.Skeleton
import proofs.«112870_j57406532878787_2_alg».proof.Proof.Gen.KernelIdeal.Launch
import proofs.«112870_j57406532878787_2_alg».proof.Proof.Gen.KernelIdeal.Points
import proofs.«112870_j57406532878787_2_alg».proof.Proof.Gen.KernelIdeal.Frame
import proofs.«112870_j57406532878787_2_alg».proof.Proof.Gen.ReferenceIdeal
import proofs.«112870_j57406532878787_2_alg».proof.Proof.Gen.Pre_finite_inputs
import proofs.«112870_j57406532878787_2_alg».proof.Proof.Gen.ReferenceIdeal.Run
import proofs.«112870_j57406532878787_2_alg».proof.Proof.Gen.ReferenceIdeal.Read
import proofs.«112870_j57406532878787_2_alg».proof.Proof.Blocks
import proofs.«112870_j57406532878787_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From arguments that agree, the kernel's two results and the reference's are the same two functions of the
    arguments: the value column, and the new hidden array under a leading unit axis. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  refine ⟨?_, ?_, (h c).2.2⟩
  · rw [(h c).1, Cert.ReferenceIdeal.Read.val_main_v56_eq, Cert.ReferenceIdeal.RefValue.value_eq,
      a0, a1, a2, a3, a4, a5, a6, a7, a8, a9, a10, a11, a12]
  · rw [(h c).2.1, Cert.ReferenceIdeal.Read.val_main_v57_eq]
    unfold Cert.ReferenceIdeal.Read.val_main_v57
    rw [Cert.ReferenceIdeal.RefValue.hnew_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
